-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512x64 : Shape := ⟨3, ![4096, 512, 64]⟩
abbrev S4096 : Shape := ⟨1, ![4096]⟩
abbrev S4096x256 : Shape := ⟨2, ![4096, 256]⟩
abbrev S320x512 : Shape := ⟨2, ![320, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S4096x512x64 : S_.BroadcastsInDim S4096x512x64 (![] : Fin 0 → Fin S4096x512x64.rank)
  reducesTo_S4096x512x64_S_d0_1_2 : S4096x512x64.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S320x512 : S_.BroadcastsInDim S320x512 (![] : Fin 0 → Fin S320x512.rank)
  reducesTo_S320x512_S_d0_1 : S320x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S512 .f32) (main_arg6 : FVec F S512x64 .f32) (main_arg7 : FVec F S64 .f32) (main_v13 : IVec S_ 1) (main_v16 : IVec S320x512 1) : IVec S_ 1 :=
  let main_c_5 : IVec S_ 1 := constantI S_ 1 1#1
  let main_v17 : IVec S_ 1 := (fun x v => Host.reduce IntOp.andi x v reducesTo_S320x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg6
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4096x512x64 .f32) (main_arg1 : IVec S4096 32) (main_arg2 : FVec F S4096x256 .f32) (main_arg3 : FVec F S4096x256 .f32) (main_arg4 : FVec F S320x512 .f32) (main_arg5 : FVec F S512 .f32) (main_arg6 : FVec F S512x64 .f32) (main_arg7 : FVec F S64 .f32) : IVec S_ 1 :=
  let main_v0 : FVec F S4096x512x64 .f32 := Host.absf main_arg0
  let main_cst : FVec F S_ .f32 := constant S_ .f32 0x7F800000#32
  let main_v1 : FVec F S4096x512x64 .f32 := broadcastInDim S4096x512x64 ![] bcast_S_S4096x512x64 main_cst
  let main_v2 : IVec S4096x512x64 1 := cmpf .olt main_v0 main_v1
  let main_c : IVec S_ 1 := constantI S_ 1 1#1
  let main_v3 : IVec S_ 1 := (fun x v => Host.reduce IntOp.andi x v reducesTo_S4096x512x64_S_d0_1_2 h_S_) main_v2 main_c
  let main_v4 : FVec F S4096x256 .f32 := Host.absf main_arg2
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S320x512 .f32 := Host.absf main_arg4
  let main_cst_4 : FVec F S_ .f32 := constant S_ .f32 0x7F800000#32
  let main_v15 : FVec F S320x512 .f32 := broadcastInDim S320x512 ![] bcast_S_S320x512 main_cst_4
  let main_v16 : IVec S320x512 1 := cmpf .olt main_v14 main_v15
  fn_part1 (F := F) main_arg5 main_arg6 main_arg7 main_v13 main_v16
-- ==== Kernel.lean ====
abbrev S4096x512x64 : Shape := ⟨3, ![4096, 512, 64]⟩
abbrev S4096 : Shape := ⟨1, ![4096]⟩
abbrev S4096x256 : Shape := ⟨2, ![4096, 256]⟩
abbrev S320x512 : Shape := ⟨2, ![320, 512]⟩
abbrev S512 : Shape := ⟨1, ![512]⟩
abbrev S512x64 : Shape := ⟨2, ![512, 64]⟩
abbrev S64 : Shape := ⟨1, ![64]⟩
abbrev S4096x256x128 : Shape := ⟨3, ![4096, 256, 128]⟩
abbrev S_ : Shape := ⟨0, ![]⟩
abbrev S4096x1 : Shape := ⟨2, ![4096, 1]⟩
abbrev S4096x64 : Shape := ⟨2, ![4096, 64]⟩
abbrev S512x32x128 : Shape := ⟨3, ![512, 32, 128]⟩
abbrev S512x1 : Shape := ⟨2, ![512, 1]⟩
abbrev S512x256 : Shape := ⟨2, ![512, 256]⟩
abbrev S512x128 : Shape := ⟨2, ![512, 128]⟩
abbrev S512x32x1 : Shape := ⟨3, ![512, 32, 1]⟩
abbrev S1x1x128 : Shape := ⟨3, ![1, 1, 128]⟩
abbrev S512x1x1 : Shape := ⟨3, ![512, 1, 1]⟩
abbrev S256x512 : Shape := ⟨2, ![256, 512]⟩
abbrev S64x512 : Shape := ⟨2, ![64, 512]⟩
abbrev S512x512 : Shape := ⟨2, ![512, 512]⟩
abbrev S1x512 : Shape := ⟨2, ![1, 512]⟩
abbrev S1x64 : Shape := ⟨2, ![1, 64]⟩

abbrev nBuf : Space → Nat
  | .hbm => 19
  | .vmem => 15
  | .smem => 0
  | _ => 0

abbrev bufTy : (tb : Table) → Fin (tcTables nBuf tb) → BufTy
  | .hbm, ⟨0, _⟩ => ⟨S4096x512x64, .f32⟩
  | .hbm, ⟨1, _⟩ => ⟨S4096, .i32⟩
  | .hbm, ⟨2, _⟩ => ⟨S4096x256, .f32⟩
  | .hbm, ⟨3, _⟩ => ⟨S4096x256, .f32⟩
  | .hbm, ⟨4, _⟩ => ⟨S320x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S4096x256x128, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x64, .f32⟩
  | .local _ .vmem, ⟨0, _⟩ => ⟨S512x32x128, .f32⟩
  | .local _ .vmem, ⟨1, _⟩ => ⟨S512x32x128, .f32⟩
  | .local _ .vmem, ⟨2, _⟩ => ⟨S512x1, .i32⟩
  | .local _ .vmem, ⟨3, _⟩ => ⟨S512x1, .i32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S320x512, .f32⟩
  | .local _ .vmem, ⟨9, _⟩ => ⟨S512, .f32⟩
  | .local _ .vmem, ⟨10, _⟩ => ⟨S512x64, .f32⟩
  | .local _ .vmem, ⟨11, _⟩ => ⟨S64, .f32⟩
  | .local _ .vmem, ⟨12, _⟩ => ⟨S512x64, .f32⟩
  | .local _ .vmem, ⟨13, _⟩ => ⟨S512x64, .f32⟩
  | .local _ .vmem, ⟨14, _⟩ => ⟨S512x128, .f32⟩
  | _, _ => ⟨S4096x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_10 : BitVec 32 := 0#32
  let v34 : BitVec 1 := Scalar.cmpi .ne v33 c0_i32_10
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S320x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S4096x512x64_S4096x256x128 : S4096x512x64.ShapeCasts S4096x256x128
  bcast_S_S4096 : S_.BroadcastsInDim S4096 (![] : Fin 0 → Fin S4096.rank)
  shapeCasts_S4096_S4096x1 : S4096.ShapeCasts S4096x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x32x1_d1_w32 : S512x32x1.Iotas .tc 32 [1]
  iota_S1x1x128_d2_w32 : S1x1x128.Iotas .tc 32 [2]
  natLt_1_32 : 1 < 32
  broadcasts_S512x32x1_S512x32x128 : S512x32x1.Broadcasts S512x32x128
  broadcasts_S1x1x128_S512x32x128 : S1x1x128.Broadcasts S512x32x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1_S512x1x1 : S512x1.ShapeCasts S512x1x1
  broadcasts_S512x1x1_S512x32x128 : S512x1x1.Broadcasts S512x32x128
  inb_S512x32x128_S512x32x128_0_0_0 : ∀ a, (![0, 0, 0] : Fin 3 → Nat) a + S512x32x128.size a ≤ S512x32x128.size a
  h_S512x32x128 : 0 < S512x32x128.numel
  shapeCasts_S512x32x128_S512x32x128 : S512x32x128.ShapeCasts S512x32x128
  reduces_S512x32x128_S512x128 : S512x32x128.Reduces [1] S512x128
  inb_S512x128_S512x64_0_0 : ∀ a, (![0, 0] : Fin 2 → Nat) a + S512x64.size a ≤ S512x128.size a
  h_S512x64 : 0 < S512x64.numel
  inb_S512x128_S512x64_0_64 : ∀ a, (![0, 64] : Fin 2 → Nat) a + S512x64.size a ≤ S512x128.size a
  broadcasts_S512x1_S512x64 : S512x1.Broadcasts S512x64
  inb_S512x256_S512x256_0_0 : ∀ a, (![0, 0] : Fin 2 → Nat) a + S512x256.size a ≤ S512x256.size a
  h_S512x256 : 0 < S512x256.numel
  inb_S320x512_S256x512_0_0 : ∀ a, (![0, 0] : Fin 2 → Nat) a + S256x512.size a ≤ S320x512.size a
  h_S256x512 : 0 < S256x512.numel
  bitsLt_bf16_f32 : FTy.bits .bf16 < FTy.bits .f32
  inb_S320x512_S64x512_256_0 : ∀ a, (![256, 0] : Fin 2 → Nat) a + S64x512.size a ≤ S320x512.size a
  h_S64x512 : 0 < S64x512.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x64_S512x64_0_0 : ∀ a, (![0, 0] : Fin 2 → Nat) a + S512x64.size a ≤ S512x64.size a
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  dot_S512x256_S256x512_S512x512_1_0_0_1_n_n_wf : DotDims.WF S512x256 S256x512 S512x512 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x128.size a ≤ S4096x256x128.size a
  hwx0_0 : ∀ i : grid0.Coords, EltTy.bits .f32 = 32 ∨ (Rect.block (s := S4096x256x128) S512x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x512.size a ≤ S320x512.size a
  hwx0_4 : ∀ i : grid0.Coords, EltTy.bits .f32 = 32 ∨ (Rect.block (s := S320x512) S320x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .f32 = 32 ∨ (Rect.block (s := S512x64) S512x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x64.size a ≤ S4096x64.size a
  hwx0_8 : ∀ i : grid0.Coords, EltTy.bits .f32 = 32 ∨ (Rect.block (s := S4096x64) S512x64.size (cc0_transform_8 i) (hinb0_8 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S512x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S320x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x512x64 : Shape := ⟨3, ![4096, 512, 64]⟩
abbrev S4096 : Shape := ⟨1, ![4096]⟩
abbrev S4096x256 : Shape := ⟨2, ![4096, 256]⟩
abbrev S320x512 : Shape := ⟨2, ![320, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S4096x1 : Shape := ⟨2, ![4096, 1]⟩
abbrev S4096x512 : Shape := ⟨2, ![4096, 512]⟩
abbrev S_ : Shape := ⟨0, ![]⟩
abbrev S4096x512x1 : Shape := ⟨3, ![4096, 512, 1]⟩
abbrev S4096x64 : Shape := ⟨2, ![4096, 64]⟩
abbrev S4096x320 : Shape := ⟨2, ![4096, 320]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S4096x512x64, .f32⟩
  | .hbm, ⟨1, _⟩ => ⟨S4096, .i32⟩
  | .hbm, ⟨2, _⟩ => ⟨S4096x256, .f32⟩
  | .hbm, ⟨3, _⟩ => ⟨S4096x256, .f32⟩
  | .hbm, ⟨4, _⟩ => ⟨S320x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S512, .i32⟩
  | .hbm, ⟨9, _⟩ => ⟨S1x512, .i32⟩
  | .hbm, ⟨10, _⟩ => ⟨S4096x1, .i32⟩
  | .hbm, ⟨11, _⟩ => ⟨S4096x512, .i32⟩
  | .hbm, ⟨12, _⟩ => ⟨S4096x512, .i32⟩
  | .hbm, ⟨13, _⟩ => ⟨S4096x512, .i1⟩
  | .hbm, ⟨14, _⟩ => ⟨S4096x512, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512x1, .f32⟩
  | .hbm, ⟨22, _⟩ => ⟨S4096x512x64, .f32⟩
  | .hbm, ⟨23, _⟩ => ⟨S4096x512x64, .f32⟩
  | .hbm, ⟨24, _⟩ => ⟨S_, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S4096x256, .f32⟩
  | .hbm, ⟨29, _⟩ => ⟨S4096x320, .f32⟩
  | .hbm, ⟨30, _⟩ => ⟨S4096x512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x64, .f32⟩
  | .hbm, ⟨38, _⟩ => ⟨S1x64, .f32⟩
  | .hbm, ⟨39, _⟩ => ⟨S4096x64, .f32⟩
  | .hbm, ⟨40, _⟩ => ⟨S4096x64, .f32⟩
  | .hbm, ⟨41, _⟩ => ⟨S4096x64, .f32⟩
  | _, _ => ⟨S4096x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S4096_S4096x1_0 : S4096.BroadcastsInDim S4096x1 (![0] : Fin 1 → Fin S4096x1.rank)
  bcast_S1x512_S4096x512_0_1 : S1x512.BroadcastsInDim S4096x512 (![0, 1] : Fin 2 → Fin S4096x512.rank)
  bcast_S4096x1_S4096x512_0_1 : S4096x1.BroadcastsInDim S4096x512 (![0, 1] : Fin 2 → Fin S4096x512.rank)
  reducesTo_S4096x512_S4096_d1 : S4096x512.ReducesTo [1] S4096
  h_S_ : 0 < S_.numel
  bcast_S_S4096x1 : S_.BroadcastsInDim S4096x1 (![] : Fin 0 → Fin S4096x1.rank)
  bcast_S4096x512_S4096x512x1_0_1 : S4096x512.BroadcastsInDim S4096x512x1 (![0, 1] : Fin 2 → Fin S4096x512x1.rank)
  bcast_S4096x512x1_S4096x512x64_0_1_2 : S4096x512x1.BroadcastsInDim S4096x512x64 (![0, 1, 2] : Fin 3 → Fin S4096x512x64.rank)
  reducesTo_S4096x512x64_S4096x64_d1 : S4096x512x64.ReducesTo [1] S4096x64
  bcast_S4096x1_S4096x64_0_1 : S4096x1.BroadcastsInDim S4096x64 (![0, 1] : Fin 2 → Fin S4096x64.rank)
  concatenates_S4096x256_S4096x64_S4096x320_d1 : Shape.Concatenates [S4096x256, S4096x64] S4096x320 1
  bcast_S_S4096x512 : S_.BroadcastsInDim S4096x512 (![] : Fin 0 → Fin S4096x512.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x320_S320x512_S4096x512_1_0_0_1_n_n_wf : DotDims.WF S4096x320 S320x512 S4096x512 [1] [0] [0] [1] [] []
  dot_S4096x512_S512x64_S4096x64_1_0_0_1_n_n_wf : DotDims.WF S4096x512 S512x64 S4096x64 [1] [0] [0] [1] [] []

variable [Facts₀]

def dot_S4096x320_S320x512_S4096x512_1_0_0_1_n_n : DotDims S4096x320 S320x512 S4096x512 where
  lhsContracting := [1]
  rhsContracting := [0]
  lhsNonContracting := [0]
  rhsNonContracting := [1]
  lhsBatch := []
  rhsBatch := []
  wf := dot_S4096x320_S320x512_S4096x512_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf

class Facts : Prop extends Facts₀ where

variable [Facts]
-- ==== Proof.KPieces.lean ====
/-
  What each control case of the kernel body leaves behind, as the body's own arithmetic.

  At the first point of a run (case A) the accumulator is zeroed and the point's masked row sums added; at a middle point
  (case B) and at the last point (case C) the point's sums are added to what the point before left.
-/
import proofs.«103689_j15814069584202_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Case A: the accumulator is left at the zero block plus the point's masked sums. -/
theorem scratch_A (c : Dev nD) (i : grid0.Coords) (arg2 : Memref sig .tc .vmem S512x32x128 .f32) (harg2 : arg2.IsWhole) (arg3 : Memref sig .tc .vmem S512x1 .i32) (harg3 : arg3.IsWhole) (arg4 : Memref sig .tc .vmem S512x256 .f32) (harg4 : arg4.IsWhole) (arg5 : Memref sig .tc .vmem S512x256 .f32) (harg5 : arg5.IsWhole) (arg6 : Memref sig .tc .vmem S320x512 .f32) (harg6 : arg6.IsWhole) (arg7 : Memref sig .tc .vmem S512 .f32) (harg7 : arg7.IsWhole) (arg8 : Memref sig .tc .vmem S512x64 .f32) (harg8 : arg8.IsWhole) (arg9 : Memref sig .tc .vmem S64 .f32) (harg9 : arg9.IsWhole) (arg10 : Memref sig .tc .vmem S512x64 .f32) (harg10 : arg10.IsWhole) (arg11 : Memref sig .tc .vmem S512x128 .f32) (harg11 : arg11.IsWhole) (hc0 : cond0_0 i) (hc1 : ¬cond0_1 i) (x0 : Vec F S512x32x128 .f32) (x1 : Vec F S512x1 .i32) (x2 : Vec F S512x256 .f32) (x3 : Vec F S512x256 .f32) (x4 : Vec F S320x512 .f32) (x5 : Vec F S512 .f32) (x6 : Vec F S512x64 .f32) (x7 : Vec F S64 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay2 i x1 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S512x128) hz2, View.readCov_unit_zero (S := S512x128) _ hz2]
  simp only [View.readAt_eq_ld, harg3.read_unread, harg2.read_unread,
    View.ld_unit_zero (S := S512x1) hz2, View.ld_unit_zero (S := S512x32x128) hz3]

/-- Case B: the accumulator is left at what it held plus the point's masked sums. -/
theorem scratch_B (c : Dev nD) (i : grid0.Coords) (arg2 : Memref sig .tc .vmem S512x32x128 .f32) (harg2 : arg2.IsWhole) (arg3 : Memref sig .tc .vmem S512x1 .i32) (harg3 : arg3.IsWhole) (arg4 : Memref sig .tc .vmem S512x256 .f32) (harg4 : arg4.IsWhole) (arg5 : Memref sig .tc .vmem S512x256 .f32) (harg5 : arg5.IsWhole) (arg6 : Memref sig .tc .vmem S320x512 .f32) (harg6 : arg6.IsWhole) (arg7 : Memref sig .tc .vmem S512 .f32) (harg7 : arg7.IsWhole) (arg8 : Memref sig .tc .vmem S512x64 .f32) (harg8 : arg8.IsWhole) (arg9 : Memref sig .tc .vmem S64 .f32) (harg9 : arg9.IsWhole) (arg10 : Memref sig .tc .vmem S512x64 .f32) (harg10 : arg10.IsWhole) (arg11 : Memref sig .tc .vmem S512x128 .f32) (harg11 : arg11.IsWhole) (hc0 : ¬cond0_0 i) (hc1 : ¬cond0_1 i) (x0 : Vec F S512x32x128 .f32) (x1 : Vec F S512x1 .i32) (x2 : Vec F S512x256 .f32) (x3 : Vec F S512x256 .f32) (x4 : Vec F S320x512 .f32) (x5 : Vec F S512 .f32) (x6 : Vec F S512x64 .f32) (x7 : Vec F S64 .f32) (xs0 : Vec F S512x128 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 i x1 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  rw [View.canon_unit_zero hz2]
  simp only [View.readAt_eq_ld, harg3.read_unread, harg2.read_unread, harg11.read_unread,
    View.ld_unit_zero (S := S512x128) hz2, View.ld_unit_zero (S := S512x1) hz2, View.ld_unit_zero (S := S512x32x128) hz3]

/-- Case C: the accumulator, likewise. -/
theorem scratch_C (c : Dev nD) (i : grid0.Coords) (arg2 : Memref sig .tc .vmem S512x32x128 .f32) (harg2 : arg2.IsWhole) (arg3 : Memref sig .tc .vmem S512x1 .i32) (harg3 : arg3.IsWhole) (arg4 : Memref sig .tc .vmem S512x256 .f32) (harg4 : arg4.IsWhole) (arg5 : Memref sig .tc .vmem S512x256 .f32) (harg5 : arg5.IsWhole) (arg6 : Memref sig .tc .vmem S320x512 .f32) (harg6 : arg6.IsWhole) (arg7 : Memref sig .tc .vmem S512 .f32) (harg7 : arg7.IsWhole) (arg8 : Memref sig .tc .vmem S512x64 .f32) (harg8 : arg8.IsWhole) (arg9 : Memref sig .tc .vmem S64 .f32) (harg9 : arg9.IsWhole) (arg10 : Memref sig .tc .vmem S512x64 .f32) (harg10 : arg10.IsWhole) (arg11 : Memref sig .tc .vmem S512x128 .f32) (harg11 : arg11.IsWhole) (hc0 : ¬cond0_0 i) (hc1 : cond0_1 i) (x0 : Vec F S512x32x128 .f32) (x1 : Vec F S512x1 .i32) (x2 : Vec F S512x256 .f32) (x3 : Vec F S512x256 .f32) (x4 : Vec F S320x512 .f32) (x5 : Vec F S512 .f32) (x6 : Vec F S512x64 .f32) (x7 : Vec F S64 .f32) (xs0 : Vec F S512x128 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 i x1 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg3.read_unread, harg2.read_unread, harg11.read_unread,
    View.ld_unit_zero (S := S512x128) hz2, View.ld_unit_zero (S := S512x1) hz2, View.ld_unit_zero (S := S512x32x128) hz3]

end Cert.KernelIdeal.Pieces

end
-- ==== Proof.WordFacts.lean ====
/-
  Facts about 32-bit words read as signed integers, and one regrouping of a sum.

  A length word clamped into [0, 512] (`clamp`); a position below 512 is below the clamped length exactly when it is
  below the length itself (`slt_clamp`); the number of positions below the length is the clamped length (`count`); the
  position a lane of the packed layout stands for, computed in words, is the number it should be (`pos_eq`); and a sum
  over 512 consecutive positions is the sum over the even positions plus the sum over the odd ones, each taken in eight
  runs of thirty-two (`sum_pairs_blocks`).
-/
import Idealize.ShloMosaic.PureOps.Ideal

namespace Cert.WordFacts

/-- A length word clamped into [0, 512] as a signed number: first raised to at least 0, then lowered to at most 512. -/
def clamp (len : BitVec 32) : BitVec 32 :=
  if (512#32).slt (if len.slt 0#32 then 0#32 else len) then 512#32 else (if len.slt 0#32 then 0#32 else len)

/-- A natural number below 2^31, as a 32-bit word read as a signed number, is itself. -/
theorem toInt_ofNat_small (n : ℕ) (h : n < 2147483648) : (BitVec.ofNat 32 n).toInt = (n : ℤ) := by
  rw [BitVec.toInt_eq_toNat_cond, BitVec.toNat_ofNat]
  have h1 : n % 2 ^ 32 = n := Nat.mod_eq_of_lt (by omega)
  rw [h1]
  split <;> omega

/-- The clamped length read as a signed number is the length's signed value clamped into [0, 512]. -/
theorem clamp_toInt (len : BitVec 32) : (clamp len).toInt = min 512 (max 0 len.toInt) := by
  have h0 : (0#32).toInt = 0 := by decide
  have h512 : (512#32).toInt = 512 := by decide
  unfold clamp
  by_cases h1 : len.toInt < 0
  · simp [BitVec.slt, h0, h512, h1]
    omega
  · by_cases h2 : 512 < len.toInt
    · simp [BitVec.slt, h0, h512, h1, h2]
      omega
    · simp [BitVec.slt, h0, h512, h1, h2]
      omega

/-- A position below 512 is below the clamped length exactly when it is below the length. -/
theorem slt_clamp (len : BitVec 32) (l : ℕ) (hl : l < 512) :
    (BitVec.ofNat 32 l).slt (clamp len) = (BitVec.ofNat 32 l).slt len := by
  simp only [BitVec.slt, clamp_toInt, toInt_ofNat_small l (by omega)]
  congr 1
  apply propext
  omega

/-- The position of lane `q` of packed row `m` in the `j`-th run, in word arithmetic: `64 j + 2 m`, plus one in the
    upper half of the lanes. -/
theorem pos_eq (j m q : ℕ) (hj : j < 8) (hm : m < 32) (hq : q < 128) :
    BitVec.ofNat 32 j * 64#32 + 2#32 * BitVec.ofNat 32 m
        + (BitVec.ofBool ((64#32).sle (BitVec.ofNat 32 q))).setWidth 32
      = BitVec.ofNat 32 (64 * j + 2 * m + q / 64) := by
  have h64 : (64#32).toInt = 64 := by decide
  have hsle : (64#32).sle (BitVec.ofNat 32 q) = decide (64 ≤ q) := by
    simp only [BitVec.sle, h64, toInt_ofNat_small q (by omega)]
    congr 1
    apply propext
    omega
  rw [hsle]
  apply BitVec.eq_of_toNat_eq
  by_cases hq64 : 64 ≤ q
  · have hd : q / 64 = 1 := by omega
    simp [hq64, hd, BitVec.toNat_add, BitVec.toNat_mul, BitVec.toNat_ofNat]
    omega
  · have hd : q / 64 = 0 := by omega
    simp [hq64, hd, BitVec.toNat_add, BitVec.toNat_mul, BitVec.toNat_ofNat]
    omega

/-- A bit widened to a word and read as a signed number is the bit read as a natural number. -/
theorem bit_toInt (b : Bool) : (((BitVec.ofBool b).setWidth 32).toInt : ℝ) = ((BitVec.ofBool b).toNat : ℝ) := by
  have h : ((BitVec.ofBool b).setWidth 32).toInt = ((BitVec.ofBool b).toNat : ℤ) := by
    cases b <;> decide
  rw [h, Int.cast_natCast]

/-- Among the first n numbers, those below k ≤ n number k. -/
theorem sum_range_lt (n k : ℕ) (hk : k ≤ n) :
    ∑ l ∈ Finset.range n, (if l < k then (1 : ℝ) else 0) = (k : ℝ) := by
  rw [Finset.sum_boole]
  have : Finset.filter (fun l => l < k) (Finset.range n) = Finset.range k := by
    ext l
    simp only [Finset.mem_filter, Finset.mem_range]
    omega
  rw [this, Finset.card_range]

/-- The number of positions below 512 that are below the length is the clamped length. -/
theorem count (len : BitVec 32) :
    ∑ l : Fin 512, (((BitVec.ofBool ((BitVec.ofNat 32 l.val).slt len)).toNat : ℝ)) = ((clamp len).toInt : ℝ) := by
  have hc := clamp_toInt len
  have hk : (clamp len).toInt.toNat ≤ 512 := by omega
  have hcast : ((clamp len).toInt : ℝ) = (((clamp len).toInt.toNat : ℕ) : ℝ) := by
    have : ((clamp len).toInt.toNat : ℤ) = (clamp len).toInt := Int.toNat_of_nonneg (by omega)
    rw [← this, Int.cast_natCast, Int.toNat_natCast]
  rw [hcast, ← sum_range_lt 512 _ hk,
    ← Fin.sum_univ_eq_sum_range (fun l => if l < (clamp len).toInt.toNat then (1 : ℝ) else 0) 512]
  refine Finset.sum_congr rfl fun l _ => ?_
  have hl : l.val < 512 := l.isLt
  simp only [BitVec.slt, toInt_ofNat_small l.val (by omega), BitVec.toNat_ofBool]
  by_cases h : (l.val : ℤ) < len.toInt
  · have h' : l.val < (clamp len).toInt.toNat := by omega
    simp [h, h']
  · have h' : ¬ l.val < (clamp len).toInt.toNat := by omega
    simp [h, h']

/-- A sum over the first 2 n numbers is the sum over the first n pairs. -/
theorem sum_range_two_mul {M : Type*} [AddCommMonoid M] (f : ℕ → M) (n : ℕ) :
    ∑ l ∈ Finset.range (2 * n), f l = ∑ k ∈ Finset.range n, (f (2 * k) + f (2 * k + 1)) := by
  induction n with
  | zero => simp
  | succ n ih =>
    rw [show 2 * (n + 1) = 2 * n + 1 + 1 by ring, Finset.sum_range_succ, Finset.sum_range_succ, ih,
      Finset.sum_range_succ, add_assoc]

/-- A sum over the first a b numbers is the sum over a runs of b. -/
theorem sum_range_mul_runs {M : Type*} [AddCommMonoid M] (g : ℕ → M) (a b : ℕ) :
    ∑ k ∈ Finset.range (a * b), g k = ∑ s ∈ Finset.range a, ∑ m ∈ Finset.range b, g (b * s + m) := by
  induction a with
  | zero => simp
  | succ a ih =>
    rw [Nat.succ_mul, Finset.sum_range_add, ih, Finset.sum_range_succ, Nat.mul_comm a b]

/-- A sum over 512 consecutive positions: the even positions, then the odd ones, each in eight runs of thirty-two. -/
theorem sum_pairs_blocks {M : Type*} [AddCommMonoid M] (f : ℕ → M) :
    ∑ l : Fin 512, f l.val
      = (∑ s ∈ Finset.range 8, ∑ m : Fin 32, f (64 * s + 2 * m.val))
        + (∑ s ∈ Finset.range 8, ∑ m : Fin 32, f (64 * s + 2 * m.val + 1)) := by
  rw [Fin.sum_univ_eq_sum_range (fun l => f l) 512, show (512 : ℕ) = 2 * (8 * 32) from rfl, sum_range_two_mul,
    Finset.sum_add_distrib, sum_range_mul_runs, sum_range_mul_runs]
  refine congrArg₂ (· + ·) ?_ ?_
  · refine Finset.sum_congr rfl fun s _ => ?_
    rw [← Fin.sum_univ_eq_sum_range (fun m => f (2 * (32 * s + m))) 32]
    refine Finset.sum_congr rfl fun m _ => ?_
    congr 1
    omega
  · refine Finset.sum_congr rfl fun s _ => ?_
    rw [← Fin.sum_univ_eq_sum_range (fun m => f (2 * (32 * s + m) + 1)) 32]
    refine Finset.sum_congr rfl fun m _ => ?_
    congr 1
    omega

end Cert.WordFacts
-- ==== Proof.Spec.lean ====
/-
  The function both programs compute, entry by entry, on the extended reals.

  For a batch row `b` with length word `len`, position `l` of the row counts when `l` is below `len` read as a signed
  number (`mk`).  The row's masked mean is the sum of its counted positions divided by the number of counted positions, at
  least one (`mean`).  The result is a two-layer perceptron on the feature difference joined with that mean — the first
  layer's sum split at the join —, a rectifier between the layers, plus the mean again (`out`).
-/
import Idealize.ShloMosaic.PureOps.Ideal
import Idealize.ShloMosaic.Lib.ValueIdx

noncomputable section

namespace Cert.Spec

open Idealize.ShloMosaic Idealize.ShloMosaic.ValueIdx

/-- The mask entry of a row whose length word is `len`, at position `l`: one when `l` is below the length read as a
    signed number, zero otherwise (the comparison's bit, read as a number). -/
def mk (len : BitVec 32) (l : ℕ) : EReal := (((BitVec.ofBool ((BitVec.ofNat 32 l).slt len)).toNat : ℝ) : EReal)

variable (x0 : (⟨3, ![4096, 512, 64]⟩ : Shape).Idx → EReal) (x1 : (⟨1, ![4096]⟩ : Shape).Idx → BitVec 32)
  (x2 x3 : (⟨2, ![4096, 256]⟩ : Shape).Idx → EReal) (x4 : (⟨2, ![320, 512]⟩ : Shape).Idx → EReal)
  (x5 : (⟨1, ![512]⟩ : Shape).Idx → EReal) (x6 : (⟨2, ![512, 64]⟩ : Shape).Idx → EReal)
  (x7 : (⟨1, ![64]⟩ : Shape).Idx → EReal)

/-- The number of counted positions of row `b`, summed from zero, and at least one. -/
def cnt (b : Fin 4096) : EReal :=
  max (Ideal.ofBits .f32 0x00000000#32 + ∑ l : Fin 512, mk (x1 (ix1 b)) l.val) (Ideal.ofBits .f32 0x3F800000#32)

/-- The sum over the counted positions of row `b`, in feature `a`, from zero. -/
def msum (b : Fin 4096) (a : Fin 64) : EReal :=
  Ideal.ofBits .f32 0x00000000#32 + ∑ l : Fin 512, x0 (ix3 b l a) * mk (x1 (ix1 b)) l.val

/-- The masked mean of row `b` in feature `a`. -/
def mean (b : Fin 4096) (a : Fin 64) : EReal := Ideal.div (msum x0 x1 b a) (cnt x1 b)

/-- The first layer before the rectifier: the feature difference against the first 256 rows of the weight, the mean
    against its last 64 rows, and the bias. -/
def pre (b : Fin 4096) (n : Fin 512) : EReal :=
  ((∑ k : Fin 256, (x3 (ix2 b k) - x2 (ix2 b k)) * x4 (ix2 (⟨k.val, by omega⟩ : Fin 320) n))
    + (∑ k : Fin 64, mean x0 x1 b k * x4 (ix2 (⟨256 + k.val, by omega⟩ : Fin 320) n))) + x5 (ix1 n)

/-- The hidden layer: the rectifier of `pre`. -/
def hid (b : Fin 4096) (n : Fin 512) : EReal := max (pre x0 x1 x2 x3 x4 x5 b n) (Ideal.ofBits .f32 0x00000000#32)

/-- The result at row `b`, feature `a`. -/
def out (b : Fin 4096) (a : Fin 64) : EReal :=
  ((∑ n : Fin 512, hid x0 x1 x2 x3 x4 x5 b n * x6 (ix2 n a)) + x7 (ix1 a)) + mean x0 x1 b a

/-- The whole result array. -/
def G : (⟨2, ![4096, 64]⟩ : Shape).Idx → EReal := fun i => out x0 x1 x2 x3 x4 x5 x6 x7 (i 0) (i 1)

end Cert.Spec

end
-- ==== Proof.MaskFacts.lean ====
/-
  The mask as the kernel forms it against the mask of the specification.

  The kernel compares, in word arithmetic, the position a lane of the packed layout stands for against the length clamped
  into [0, 512], and reads the bit as a signed word; the specification compares the position against the length itself and
  reads the bit as a natural number.  For the positions of the packed layout these agree (`kmask_clamp`), and the clamped
  length, read as a number, is the specification's count of the positions below the length, summed from zero (`count_eq`).
-/
import proofs.«103689_j15814069584202_2_alg».proof.Proof.WordFacts
import proofs.«103689_j15814069584202_2_alg».proof.Proof.Spec
import Idealize.ShloMosaic.PureOps.Ideal.Laws

noncomputable section

namespace Cert.MaskFacts

open Idealize.ShloMosaic

/-- The position word of lane `q` of packed row `m` in run `j`, as the kernel body computes it. -/
def posw (j : ℕ) (m : Fin 32) (q : Fin 128) : BitVec 32 :=
  BitVec.ofNat 32 j * 64#32 + 2#32 * BitVec.ofNat 32 m.val
    + (BitVec.ofBool ((64#32).sle (BitVec.ofNat 32 q.val))).setWidth 32

/-- The kernel's mask entry: the bit "position below the length word", widened to a word and read as a signed number. -/
def kmask (j : ℕ) (len : BitVec 32) (m : Fin 32) (q : Fin 128) : EReal :=
  ((((BitVec.ofBool ((posw j m q).slt len)).setWidth 32).toInt : ℝ) : EReal)

/-- Against the clamped length the kernel's mask entry is the specification's at position `64 j + 2 m + q / 64`. -/
theorem kmask_clamp (j : ℕ) (hj : j < 8) (len : BitVec 32) (m : Fin 32) (q : Fin 128) :
    kmask j (Cert.WordFacts.clamp len) m q = Cert.Spec.mk len (64 * j + 2 * m.val + q.val / 64) := by
  have hm := m.isLt
  have hq := q.isLt
  unfold kmask Cert.Spec.mk posw
  rw [Cert.WordFacts.pos_eq j m.val q.val hj hm hq, Cert.WordFacts.slt_clamp len _ (by omega), Cert.WordFacts.bit_toInt]

/-- A finite sum of real numbers, read in the extended reals, is the sum of the readings. -/
theorem coe_sum {ι : Type*} (s : Finset ι) (r : ι → ℝ) : ((∑ l ∈ s, r l : ℝ) : EReal) = ∑ l ∈ s, (r l : EReal) := by
  classical
  induction s using Finset.induction_on with
  | empty => simp
  | insert a s ha ih => rw [Finset.sum_insert ha, Finset.sum_insert ha, EReal.coe_add, ih]

/-- The clamped length read as a number is the count of the positions below the length, summed from zero. -/
theorem count_eq (len : BitVec 32) :
    ((((Cert.WordFacts.clamp len).toInt : ℝ)) : EReal)
      = Ideal.ofBits .f32 0x00000000#32 + ∑ l : Fin 512, Cert.Spec.mk len l.val := by
  rw [Ideal.ofBits_zero_f32, zero_add, ← Cert.WordFacts.count len, coe_sum]
  rfl

end Cert.MaskFacts

end
-- ==== Proof.KPayload.lean ====
/-
  The kernel body's arithmetic read at one entry, on the extended reals.

  One grid point adds to the accumulator, at row `p` and lane `q`, the sum over the 32 packed rows `m` of the block of
  the entry `(p, m, q)` times its mask bit; the bit compares the position the lane stands for, `64 j + 2 m` plus one in
  the upper half of the lanes (computed in words: `posw`), against the row's length word (`accum_apply`).
-/
import proofs.«103689_j15814069584202_2_alg».proof.Proof.Gen.KernelIdeal.Skeleton
import proofs.«103689_j15814069584202_2_alg».proof.Proof.MaskFacts
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.MaskFacts

variable {α : Type}

/-- A `[512, 32, 1]` array repeated along the lanes reads, at `(p, m, q)`, its entry `(p, m, 0)`. -/
theorem bcast_rows (v : (⟨3, ![512, 32, 1]⟩ : Shape).Idx → α)
    (h : (⟨3, ![512, 32, 1]⟩ : Shape).Broadcasts ⟨3, ![512, 32, 128]⟩) (p : Fin 512) (m : Fin 32) (q : Fin 128) :
    broadcastTo ⟨3, ![512, 32, 128]⟩ v h (ix3 p m q) = v (ix3 p m (0 : Fin 1)) := by
  refine broadcastTo_apply v h (ix3 p m q) (ix3 p m (0 : Fin 1)) fun ax => ?_
  match ax with
  | ⟨0, _⟩ => show p.val = if (512 : ℕ) = 1 then 0 else p.val; rw [if_neg (by decide)]
  | ⟨1, _⟩ => show m.val = if (32 : ℕ) = 1 then 0 else m.val; rw [if_neg (by decide)]
  | ⟨2, _⟩ => show (0 : ℕ) = if (1 : ℕ) = 1 then 0 else q.val; rw [if_pos rfl]

/-- A `[1, 1, 128]` array repeated over rows and packed rows reads, at `(p, m, q)`, its entry `(0, 0, q)`. -/
theorem bcast_lanes (v : (⟨3, ![1, 1, 128]⟩ : Shape).Idx → α)
    (h : (⟨3, ![1, 1, 128]⟩ : Shape).Broadcasts ⟨3, ![512, 32, 128]⟩) (p : Fin 512) (m : Fin 32) (q : Fin 128) :
    broadcastTo ⟨3, ![512, 32, 128]⟩ v h (ix3 p m q) = v (ix3 (0 : Fin 1) (0 : Fin 1) q) := by
  refine broadcastTo_apply v h (ix3 p m q) (ix3 (0 : Fin 1) (0 : Fin 1) q) fun ax => ?_
  match ax with
  | ⟨0, _⟩ => show (0 : ℕ) = if (1 : ℕ) = 1 then 0 else p.val; rw [if_pos rfl]
  | ⟨1, _⟩ => show (0 : ℕ) = if (1 : ℕ) = 1 then 0 else m.val; rw [if_pos rfl]
  | ⟨2, _⟩ => show q.val = if (128 : ℕ) = 1 then 0 else q.val; rw [if_neg (by decide)]

/-- A `[512, 1, 1]` array repeated over packed rows and lanes reads, at `(p, m, q)`, its entry `(p, 0, 0)`. -/
theorem bcast_len (v : (⟨3, ![512, 1, 1]⟩ : Shape).Idx → α)
    (h : (⟨3, ![512, 1, 1]⟩ : Shape).Broadcasts ⟨3, ![512, 32, 128]⟩) (p : Fin 512) (m : Fin 32) (q : Fin 128) :
    broadcastTo ⟨3, ![512, 32, 128]⟩ v h (ix3 p m q) = v (ix3 p (0 : Fin 1) (0 : Fin 1)) := by
  refine broadcastTo_apply v h (ix3 p m q) (ix3 p (0 : Fin 1) (0 : Fin 1)) fun ax => ?_
  match ax with
  | ⟨0, _⟩ => show p.val = if (512 : ℕ) = 1 then 0 else p.val; rw [if_neg (by decide)]
  | ⟨1, _⟩ => show (0 : ℕ) = if (1 : ℕ) = 1 then 0 else m.val; rw [if_pos rfl]
  | ⟨2, _⟩ => show (0 : ℕ) = if (1 : ℕ) = 1 then 0 else q.val; rw [if_pos rfl]

/-- A column `[512, 1]` recast as `[512, 1, 1]` reads, at `(p, 0, 0)`, its entry `(p, 0)`. -/
theorem cast_len (v : (⟨2, ![512, 1]⟩ : Shape).Idx → α)
    (h : (⟨2, ![512, 1]⟩ : Shape).ShapeCasts ⟨3, ![512, 1, 1]⟩) (p : Fin 512) :
    shapeCast ⟨3, ![512, 1, 1]⟩ v h (ix3 p (0 : Fin 1) (0 : Fin 1)) = v (ix2 p (0 : Fin 1)) :=
  shapeCast_apply v h _ _ (by
    rw [Shape.rowMajor_val_two, Shape.rowMajor_val_three]
    show p.val * 1 + 0 = (p.val * 1 + 0) * 1 + 0
    omega)

/-- The sum over the middle axis of a `[512, 32, 128]` array of extended reals, read at `(p, q)`. -/
theorem sum_mid_apply (src : FVec Ideal ⟨3, ![512, 32, 128]⟩ .f32)
    (h : (⟨3, ![512, 32, 128]⟩ : Shape).Reduces [1] ⟨2, ![512, 128]⟩) (hφ : FKind.Formats FTy.f32)
    (hacc : (0x00000000#32 : BitVec 32) = 0x00000000#32) (p : Fin 512) (q : Fin 128) :
    multiReduction .add [1] ⟨2, ![512, 128]⟩ src 0x00000000#32 h hφ hacc (ix2 p q) = ∑ k : Fin 32, src (ix3 p k q) := by
  refine (Ideal.multiReduction_add_single src 0x00000000#32 h hφ hacc (ix2 p q)).trans ?_
  refine Finset.sum_congr rfl fun k _ => ?_
  exact congrArg src (funext fun ax => Fin.ext (by match ax with | ⟨0, _⟩ => rfl | ⟨1, _⟩ => rfl | ⟨2, _⟩ => rfl))

/-- An integer comparison of two arrays, read at an index. -/
theorem cmpi_at {s : Shape} {w : ℕ} (pr : CmpIPredicate) (x y : IVec s w) (i : s.Idx) :
    cmpi pr x y i = IntOp.cmpi pr (x i) (y i) := rfl

/-- The position array the body builds from the run's offset word `jw`, at `(p, m, q)`: `jw + 2 m`, plus one in the
    upper half of the lanes. -/
theorem pos_apply (jw : BitVec 32) (p : Fin 512) (m : Fin 32) (q : Fin 128) :
    (addi (broadcastTo S512x32x128 (addi (broadcast S512x32x1 jw)
          (muli (broadcast S512x32x1 2#32) (iota .tc S512x32x1 32 [1] iota_S512x32x1_d1_w32))) broadcasts_S512x32x1_S512x32x128)
        (broadcastTo S512x32x128 (extui 32 (cmpi .sge (iota .tc S1x1x128 32 [2] iota_S1x1x128_d2_w32) (broadcast S1x1x128 64#32)) natLt_1_32)
          broadcasts_S1x1x128_S512x32x128)) (ix3 p m q)
      = jw + 2#32 * BitVec.ofNat 32 m.val + (BitVec.ofBool ((64#32).sle (BitVec.ofNat 32 q.val))).setWidth 32 := by
  show (broadcastTo S512x32x128 _ broadcasts_S512x32x1_S512x32x128 (ix3 p m q) : BitVec 32)
      + (broadcastTo S512x32x128 _ broadcasts_S1x1x128_S512x32x128 (ix3 p m q) : BitVec 32) = _
  rw [bcast_rows, bcast_lanes]
  show (jw + 2#32 * iota .tc S512x32x1 32 [1] iota_S512x32x1_d1_w32 (ix3 p m (0 : Fin 1)))
      + (BitVec.ofBool (BitVec.sle 64#32 (iota .tc S1x1x128 32 [2] iota_S1x1x128_d2_w32 (ix3 (0 : Fin 1) (0 : Fin 1) q)))).setWidth 32 = _
  rw [iota_single_apply, iota_single_apply]

/-- The length array the body builds from the column of length words, at `(p, m, q)`: row `p`'s word. -/
theorem len_apply (v16 : Vec Ideal S512x1 .i32) (p : Fin 512) (m : Fin 32) (q : Fin 128) :
    (broadcastTo S512x32x128 (shapeCast S512x1x1 (shapeCast S512x1 v16 shapeCasts_S512x1_S512x1) shapeCasts_S512x1_S512x1x1)
      broadcasts_S512x1x1_S512x32x128) (ix3 p m q) = v16 (ix2 p (0 : Fin 1)) := by
  rw [bcast_len, cast_len, shapeCast_self]

/-- What one grid point adds to the accumulator, at row `p` and lane `q`. -/
theorem accum_apply (i : grid0.Coords) (v16 : Vec Ideal S512x1 .i32) (v23 : Vec Ideal S512x32x128 .f32)
    (v26 : Vec Ideal S512x128 .f32) (p : Fin 512) (q : Fin 128) :
    k0_pay2 i v16 v23 v26 (ix2 p q)
      = v26 (ix2 p q) + ∑ m : Fin 32, v23 (ix3 p m q) * kmask (i 1).val (v16 (ix2 p (0 : Fin 1))) m q := by
  unfold k0_pay2
  refine (congrFun (shapeCast_self _ _) _).trans ?_
  refine congrArg (v26 (ix2 p q) + ·) ?_
  refine (sum_mid_apply _ _ _ _ p q).trans ?_
  refine Finset.sum_congr rfl fun m _ => ?_
  refine congrArg₂ (· * ·) (congrFun (shapeCast_self v23 _) _) ?_
  simp only [sitofp_apply, extui_apply, cmpi_at]
  rw [pos_apply, len_apply]
  rfl

end Cert.KernelIdeal.Payload

end
-- ==== Proof.KAccum.lean ====
/-
  The accumulator after each grid point, as a sum.

  Each point adds its masked row sums (`addend`) to the accumulator, the first point of a run to the zero block
  (`step`); so after point `t` the accumulator holds the zero block plus the addends of the points of `t`'s run up to
  `t` (`acc_eq`) — by the fold over the run, never by enumerating the grid.
-/
import proofs.«103689_j15814069584202_2_alg».proof.Proof.Gen.KernelIdeal.Value
import proofs.«103689_j15814069584202_2_alg».proof.Proof.KPieces
import proofs.«103689_j15814069584202_2_alg».proof.Proof.KPayload

noncomputable section

namespace Cert.KernelIdeal.Accum

open Cert.KernelIdeal Cert.KernelIdeal.Gen Idealize.ShloMosaic Idealize.ShloMosaic.TcCoe Idealize.SL.Sem
open Idealize.ShloMosaic.ValueIdx Cert.MaskFacts Cert.KernelIdeal.Payload Cert.KernelIdeal.Pieces

variable (m : (ℓ : Loc nD τ sig) → Buf (Elt Ideal) ℓ)

/-- The masked row sums of one block: at row `p`, lane `q`, the sum over the block's 32 packed rows of the entry times
    its mask bit, for run `j` and the column of length words `B1`. -/
def addendOf (j : ℕ) (B0 : Vec Ideal S512x32x128 .f32) (B1 : Vec Ideal S512x1 .i32) (p : Fin 512) (q : Fin 128) : EReal :=
  ∑ mm : Fin 32, B0 (ix3 p mm q) * kmask j (B1 (ix2 p (0 : Fin 1))) mm q

/-- What grid point `n` adds to the accumulator at row `p`, lane `q`: the masked row sums of its block (zero past the
    grid, where nothing reads it). -/
def addend (c : Dev nD) (n : ℕ) (p : Fin 512) (q : Fin 128) : EReal :=
  if h : n < cfg0.N then
    addendOf (grid0.coords (⟨n, h⟩ : Fin cfg0.N) (1 : Fin 2)).val (iblk m c 0 ⟨n, h⟩) (iblk m c 1 ⟨n, h⟩) p q
  else 0

/-- One point's step of the accumulator: the zero block at the first point of a run, what the point before left at the
    others, plus the point's addend. -/
theorem step (c : Dev nD) (n : ℕ) (h : n < cfg0.N) (acc : Vec Ideal S512x128 .f32) (idx : S512x128.Idx) :
    Cert.KernelIdeal.Value.scAt0_0 m c n h acc idx
      = (if n % 8 = 0 then k0_pay1 (F := Ideal) idx else acc idx) + addend m c n (idx 0) (idx 1) := by
  obtain ⟨p, q, rfl⟩ : ∃ (p : Fin 512) (q : Fin 128), idx = ix2 p q := ⟨idx 0, idx 1, eq_ix2 idx⟩
  have hN : n < 64 := lt_of_lt_of_eq h N_0
  have hadd : addend m c n p q
      = addendOf (grid0.coords (⟨n, h⟩ : Fin cfg0.N) (1 : Fin 2)).val (iblk m c 0 ⟨n, h⟩) (iblk m c 1 ⟨n, h⟩) p q := by
    unfold addend; rw [dif_pos h]
  show _ = _ + addend m c n p q
  rw [hadd]
  unfold Cert.KernelIdeal.Value.scAt0_0
  by_cases h0 : n % 8 = 0
  · have h1 : ¬n % 8 = 7 := by omega
    rw [dif_pos h0, dif_neg h1, if_pos h0]
    refine (congrFun (scratch_A (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N))) (ix2 p q)).trans ?_
    exact accum_apply (grid0.coords (⟨n, h⟩ : Fin cfg0.N)) (iblk m c 1 (⟨n, h⟩ : Fin cfg0.N)) (iblk m c 0 (⟨n, h⟩ : Fin cfg0.N)) (k0_pay1 (F := Ideal)) p q
  · rw [dif_neg h0, if_neg h0]
    by_cases h1 : n % 8 = 7
    · rw [dif_pos h1]
      refine (congrFun (scratch_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) acc) (ix2 p q)).trans ?_
      exact accum_apply (grid0.coords (⟨n, h⟩ : Fin cfg0.N)) (iblk m c 1 (⟨n, h⟩ : Fin cfg0.N)) (iblk m c 0 (⟨n, h⟩ : Fin cfg0.N)) acc p q
    · rw [dif_neg h1]
      refine (congrFun (scratch_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) acc) (ix2 p q)).trans ?_
      exact accum_apply (grid0.coords (⟨n, h⟩ : Fin cfg0.N)) (iblk m c 1 (⟨n, h⟩ : Fin cfg0.N)) (iblk m c 0 (⟨n, h⟩ : Fin cfg0.N)) acc p q

/-- After point `t` the accumulator holds the zero block plus the addends of the points of `t`'s run up to `t`. -/
theorem acc_eq (c : Dev nD) (t : Fin cfg0.N) (idx : S512x128.Idx) :
    (outsAt0 m c t.val t.isLt).2 idx
      = k0_pay1 (F := Ideal) idx + ∑ s ∈ Finset.range (t.val % 8 + 1), addend m c (8 * (t.val / 8) + s) (idx 0) (idx 1) := by
  have hN : t.val < 64 := lt_of_lt_of_eq t.isLt N_0
  rw [Cert.KernelIdeal.Value.soutsAt0_0_eq m c t]
  exact Pipeline.accAt_add_apply (fun n h => Cert.KernelIdeal.Value.scAt0_0 m c n h (VS0_0.read (Elt Ideal) VS0_0.junk))
    (Cert.KernelIdeal.Value.scAt0_0 m c) (k0_pay1 (F := Ideal)) (fun n i => addend m c n (i 0) (i 1)) (8 * (t.val / 8)) 7
    (fun h i => by rw [step, if_pos (by omega)])
    (fun n h acc i hlt hle => by rw [step, if_neg (by omega)])
    (t.val % 8) (by omega) _ idx

end Cert.KernelIdeal.Accum

end
-- ==== Proof.KArrays.lean ====
/-
  The arrays the kernel region finds, and each window's block read at coordinates.

  Grid point `t` of the 8 × 8 grid is batch tile `t / 8`, run `t % 8`.  The packed input is the input recast so that
  packed row `M`, lane `q` of batch row `b` is position `2 M + q / 64`, feature `q % 64`; the length column is the
  lengths clamped into [0, 512].  A block of the packed input at `t` holds batch rows `512 (t / 8) + p` and packed rows
  `32 (t % 8) + m`; the row-tiled windows hold batch rows `512 (t / 8) + p`; the weight and bias windows hold their arrays.
-/
import proofs.«103689_j15814069584202_2_alg».proof.Proof.Gen.KernelIdeal.Frame
import proofs.«103689_j15814069584202_2_alg».proof.Proof.WordFacts
import Idealize.ShloMosaic.Lib.Pipeline.Value
import Idealize.ShloMosaic.Lib.ValueIdx
import Idealize.ShloMosaic.Lib.StableHlo.Run
import Idealize.ShloMosaic.PureOps.Ideal

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The printed index maps and the run coordinate, decided over the grid's 64 points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val / 8 ∧ win0_8.index t (1 : Fin 2) = 0
    ∧ (grid0.coords t (1 : Fin 2)).val = t.val % 8 :=
  (by decide +kernel : ∀ t : Fin grid0.N, _)

/-- The packed input the region finds is the input recast. -/
theorem V_packed (c : Dev nD) : (V m c main_v0 : S4096x256x128.Idx → EReal)
    = shapeCast S4096x256x128 (m ((c : Thread nD τ).loc main_arg0)) shapeCasts_S4096x512x64_S4096x256x128 := by
  dsimp only [Gen.V]
  simp only [Gen.hostOps0, Gen.hostOps0_1, Gen.hostOps0_2, List.flatten_cons, List.flatten_nil, List.append_nil, List.cons_append, List.nil_append]
  after_results
  rfl

/-- The length column the region finds is the lengths raised to at least 0, lowered to at most 512, recast as a column. -/
theorem V_lenc (c : Dev nD) : (V m c main_v2 : S4096x1.Idx → BitVec 32)
    = shapeCast S4096x1 (minsi (broadcastInDim S4096 ![] bcast_S_S4096 (constantI S_ 32 512#32))
        (maxsi (broadcastInDim S4096 ![] bcast_S_S4096 (constantI S_ 32 0#32)) (m ((c : Thread nD τ).loc main_arg1))))
        shapeCasts_S4096_S4096x1 := by
  dsimp only [Gen.V]
  simp only [Gen.hostOps0, Gen.hostOps0_1, Gen.hostOps0_2, List.flatten_cons, List.flatten_nil, List.append_nil, List.cons_append, List.nil_append]
  after_results
  rfl

/-- The packed input at batch row `b`, packed row `M`, lane `q`: the input at position `2 M + q / 64`, feature `q % 64`. -/
theorem packed_apply (c : Dev nD) (b : Fin 4096) (M : Fin 256) (q : Fin 128) (l : Fin 512) (a : Fin 64)
    (hl : l.val = 2 * M.val + q.val / 64) (ha : a.val = q.val % 64) :
    V m c main_v0 (ix3 b M q) = m ((c : Thread nD τ).loc main_arg0) (ix3 b l a) := by
  have e1 : (S4096x512x64.rowMajor (ix3 b l a)).val = (b.val * 512 + l.val) * 64 + a.val :=
    Shape.rowMajor_val_three (ix3 b l a)
  have e2 : (S4096x256x128.rowMajor (ix3 b M q)).val = (b.val * 256 + M.val) * 128 + q.val :=
    Shape.rowMajor_val_three (ix3 b M q)
  rw [V_packed]
  refine shapeCast_apply (s := S4096x512x64) (t := S4096x256x128) _ _ (ix3 b M q) (ix3 b l a) ?_
  rw [e1, e2]
  omega

/-- The length column at batch row `b`: the row's length word clamped into [0, 512]. -/
theorem lenc_apply (c : Dev nD) (b : Fin 4096) :
    V m c main_v2 (ix2 b (0 : Fin 1)) = Cert.WordFacts.clamp (m ((c : Thread nD τ).loc main_arg1) (ix1 b)) := by
  have e1 : (S4096.rowMajor (ix1 b)).val = b.val := Shape.rowMajor_val_one (ix1 b)
  have e2 : (S4096x1.rowMajor (ix2 b (0 : Fin 1))).val = b.val * 1 + 0 := Shape.rowMajor_val_two (ix2 b (0 : Fin 1))
  rw [V_lenc]
  refine (shapeCast_apply (s := S4096) (t := S4096x1) _ _ (ix2 b (0 : Fin 1)) (ix1 b) ?_).trans ?_
  · rw [e1, e2]; omega
  · rfl

/-- Window 0's block at point `t`, at `(p, mm, q)`: the packed input at batch row `512 (t / 8) + p`, packed row
    `32 (t % 8) + mm`, lane `q`. -/
theorem blk0 (c : Dev nD) (t : Fin cfg0.N) (p : Fin 512) (mm : Fin 32) (q : Fin 128) (b : Fin 4096) (M : Fin 256)
    (hb : b.val = 512 * (t.val / 8) + p.val) (hM : M.val = 32 * (t.val % 8) + mm.val) :
    iblk m c 0 t (ix3 p mm q) = V m c main_v0 (ix3 b M q) := by
  have hf := idx_facts t
  show V m c main_v0 (((cfg0.win 0).blk t).view.emb (ix3 p mm q)) = _
  refine congrArg (V m c main_v0) (funext fun a => Fin.ext ?_)
  match a with
  | ⟨0, _⟩ =>
    show win0_0.index t (0 : Fin 3) * 512 + 1 * p.val = b.val
    omega
  | ⟨1, _⟩ =>
    show win0_0.index t (1 : Fin 3) * 32 + 1 * mm.val = M.val
    omega
  | ⟨2, _⟩ =>
    show win0_0.index t (2 : Fin 3) * 128 + 1 * q.val = q.val
    omega

/-- Window 1's block at point `t`, at `(p, k)`: the array at row `512 (t / 8) + p`. -/
theorem blk1 (c : Dev nD) (t : Fin cfg0.N) (p : Fin 512) (k : Fin 1) (b : Fin 4096) (hb : b.val = 512 * (t.val / 8) + p.val) :
    iblk m c 1 t (ix2 p k) = V m c main_v2 (ix2 b k) := by
  have hf := idx_facts t
  show V m c main_v2 (((cfg0.win 1).blk t).view.emb (ix2 p k)) = _
  refine congrArg (V m c main_v2) (funext fun a => Fin.ext ?_)
  match a with
  | ⟨0, _⟩ =>
    show win0_1.index t (0 : Fin 2) * 512 + 1 * p.val = b.val
    omega
  | ⟨1, _⟩ =>
    show win0_1.index t (1 : Fin 2) * 1 + 1 * k.val = k.val
    omega

/-- Window 2's block at point `t`, at `(p, k)`: the array at row `512 (t / 8) + p`. -/
theorem blk2 (c : Dev nD) (t : Fin cfg0.N) (p : Fin 512) (k : Fin 256) (b : Fin 4096) (hb : b.val = 512 * (t.val / 8) + p.val) :
    iblk m c 2 t (ix2 p k) = V m c main_arg2 (ix2 b k) := by
  have hf := idx_facts t
  show V m c main_arg2 (((cfg0.win 2).blk t).view.emb (ix2 p k)) = _
  refine congrArg (V m c main_arg2) (funext fun a => Fin.ext ?_)
  match a with
  | ⟨0, _⟩ =>
    show win0_2.index t (0 : Fin 2) * 512 + 1 * p.val = b.val
    omega
  | ⟨1, _⟩ =>
    show win0_2.index t (1 : Fin 2) * 256 + 1 * k.val = k.val
    omega

/-- Window 3's block at point `t`, at `(p, k)`: the array at row `512 (t / 8) + p`. -/
theorem blk3 (c : Dev nD) (t : Fin cfg0.N) (p : Fin 512) (k : Fin 256) (b : Fin 4096) (hb : b.val = 512 * (t.val / 8) + p.val) :
    iblk m c 3 t (ix2 p k) = V m c main_arg3 (ix2 b k) := by
  have hf := idx_facts t
  show V m c main_arg3 (((cfg0.win 3).blk t).view.emb (ix2 p k)) = _
  refine congrArg (V m c main_arg3) (funext fun a => Fin.ext ?_)
  match a with
  | ⟨0, _⟩ =>
    show win0_3.index t (0 : Fin 2) * 512 + 1 * p.val = b.val
    omega
  | ⟨1, _⟩ =>
    show win0_3.index t (1 : Fin 2) * 256 + 1 * k.val = k.val
    omega

/-- Window 4's block at point `t`, at `(p, k)`: the array at `(p, k)` itself. -/
theorem blk4 (c : Dev nD) (t : Fin cfg0.N) (p : Fin 320) (k : Fin 512)  :
    iblk m c 4 t (ix2 p k) = V m c main_arg4 (ix2 p k) := by
  have hf := idx_facts t
  show V m c main_arg4 (((cfg0.win 4).blk t).view.emb (ix2 p k)) = _
  refine congrArg (V m c main_arg4) (funext fun a => Fin.ext ?_)
  match a with
  | ⟨0, _⟩ =>
    show win0_4.index t (0 : Fin 2) * 320 + 1 * p.val = p.val
    omega
  | ⟨1, _⟩ =>
    show win0_4.index t (1 : Fin 2) * 512 + 1 * k.val = k.val
    omega

/-- Window 5's block at point `t`, at `k`: the array at `k`. -/
theorem blk5 (c : Dev nD) (t : Fin cfg0.N) (k : Fin 512) :
    iblk m c 5 t (ix1 k) = V m c main_arg5 (ix1 k) := by
  have hf := idx_facts t
  show V m c main_arg5 (((cfg0.win 5).blk t).view.emb (ix1 k)) = _
  refine congrArg (V m c main_arg5) (funext fun a => Fin.ext ?_)
  match a with
  | ⟨0, _⟩ =>
    show win0_5.index t (0 : Fin 1) * 512 + 1 * k.val = k.val
    omega

/-- Window 6's block at point `t`, at `(p, k)`: the array at `(p, k)` itself. -/
theorem blk6 (c : Dev nD) (t : Fin cfg0.N) (p : Fin 512) (k : Fin 64)  :
    iblk m c 6 t (ix2 p k) = V m c main_arg6 (ix2 p k) := by
  have hf := idx_facts t
  show V m c main_arg6 (((cfg0.win 6).blk t).view.emb (ix2 p k)) = _
  refine congrArg (V m c main_arg6) (funext fun a => Fin.ext ?_)
  match a with
  | ⟨0, _⟩ =>
    show win0_6.index t (0 : Fin 2) * 512 + 1 * p.val = p.val
    omega
  | ⟨1, _⟩ =>
    show win0_6.index t (1 : Fin 2) * 64 + 1 * k.val = k.val
    omega

/-- Window 7's block at point `t`, at `k`: the array at `k`. -/
theorem blk7 (c : Dev nD) (t : Fin cfg0.N) (k : Fin 64) :
    iblk m c 7 t (ix1 k) = V m c main_arg7 (ix1 k) := by
  have hf := idx_facts t
  show V m c main_arg7 (((cfg0.win 7).blk t).view.emb (ix1 k)) = _
  refine congrArg (V m c main_arg7) (funext fun a => Fin.ext ?_)
  match a with
  | ⟨0, _⟩ =>
    show win0_7.index t (0 : Fin 1) * 64 + 1 * k.val = k.val
    omega

end Cert.KernelIdeal.Arrays

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KEpilogue.lean ====
/-
  The last grid point of a run, read at one entry on the extended reals.

  From the folded accumulator — its lower and upper lane halves `lo`, `hi` — the body forms the row's mean
  `(lo + hi) / max(length, 1)` (`kmean`), the first layer `δ · W1[:256] + mean · W1[256:] + b1` (`kpre`), and the result
  `max(first layer, 0) · W2 + b2 + mean` (`epilogue_apply`); each matrix product is a plain sum over the contracted axis.
-/
import proofs.«103689_j15814069584202_2_alg».proof.Proof.Gen.KernelIdeal.Skeleton
import proofs.«103689_j15814069584202_2_alg».proof.Proof.LibLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! The free axes of the three matrix products: the left operand's rows and the right operand's columns. -/

theorem dA_l0 (j : _) (k : _) : ((dot_S512x256_S256x512_S512x512_1_0_0_1_n_n).lhsIdx j k 0).val = (j 0).val := by
  unfold DotDims.lhsIdx
  rw [dif_neg (show ¬(0 : Fin S512x256.rank) ∈ (dot_S512x256_S256x512_S512x512_1_0_0_1_n_n).lhsBatch by decide), dif_pos (show (0 : Fin S512x256.rank) ∈ (dot_S512x256_S256x512_S512x512_1_0_0_1_n_n).lhsNonContracting by decide)]
  rfl
theorem dA_r1 (j : _) (k : _) : ((dot_S512x256_S256x512_S512x512_1_0_0_1_n_n).rhsIdx j k 1).val = (j 1).val := by
  unfold DotDims.rhsIdx
  rw [dif_neg (show ¬(1 : Fin S256x512.rank) ∈ (dot_S512x256_S256x512_S512x512_1_0_0_1_n_n).rhsBatch by decide), dif_pos (show (1 : Fin S256x512.rank) ∈ (dot_S512x256_S256x512_S512x512_1_0_0_1_n_n).rhsNonContracting by decide)]
  rfl

theorem dB_l0 (j : _) (k : _) : ((dot_S512x64_S64x512_S512x512_1_0_0_1_n_n).lhsIdx j k 0).val = (j 0).val := by
  unfold DotDims.lhsIdx
  rw [dif_neg (show ¬(0 : Fin S512x64.rank) ∈ (dot_S512x64_S64x512_S512x512_1_0_0_1_n_n).lhsBatch by decide), dif_pos (show (0 : Fin S512x64.rank) ∈ (dot_S512x64_S64x512_S512x512_1_0_0_1_n_n).lhsNonContracting by decide)]
  rfl
theorem dB_r1 (j : _) (k : _) : ((dot_S512x64_S64x512_S512x512_1_0_0_1_n_n).rhsIdx j k 1).val = (j 1).val := by
  unfold DotDims.rhsIdx
  rw [dif_neg (show ¬(1 : Fin S64x512.rank) ∈ (dot_S512x64_S64x512_S512x512_1_0_0_1_n_n).rhsBatch by decide), dif_pos (show (1 : Fin S64x512.rank) ∈ (dot_S512x64_S64x512_S512x512_1_0_0_1_n_n).rhsNonContracting by decide)]
  rfl

theorem dC_l0 (j : _) (k : _) : ((dot_S512x512_S512x64_S512x64_1_0_0_1_n_n).lhsIdx j k 0).val = (j 0).val := by
  unfold DotDims.lhsIdx
  rw [dif_neg (show ¬(0 : Fin S512x512.rank) ∈ (dot_S512x512_S512x64_S512x64_1_0_0_1_n_n).lhsBatch by decide), dif_pos (show (0 : Fin S512x512.rank) ∈ (dot_S512x512_S512x64_S512x64_1_0_0_1_n_n).lhsNonContracting by decide)]
  rfl
theorem dC_r1 (j : _) (k : _) : ((dot_S512x512_S512x64_S512x64_1_0_0_1_n_n).rhsIdx j k 1).val = (j 1).val := by
  unfold DotDims.rhsIdx
  rw [dif_neg (show ¬(1 : Fin S512x64.rank) ∈ (dot_S512x512_S512x64_S512x64_1_0_0_1_n_n).rhsBatch by decide), dif_pos (show (1 : Fin S512x64.rank) ∈ (dot_S512x512_S512x64_S512x64_1_0_0_1_n_n).rhsNonContracting by decide)]
  rfl

/-- The row's mean as the body forms it: the two lane halves of the accumulator added, over the length (at least one). -/
def kmean (v35 : Vec Ideal S512x1 .i32) (v40 v41 : Vec Ideal S512x64 .f32) (p : Fin 512) (a : Fin 64) : EReal :=
  Ideal.div (v40 (ix2 p a) + v41 (ix2 p a))
    (max ((((v35 (ix2 p (0 : Fin 1))).toInt : ℝ) : EReal)) (Ideal.ofBits .f32 0x3F800000#32))

/-- The first layer before the rectifier, as the body forms it. -/
def kpre (v35 : Vec Ideal S512x1 .i32) (v40 v41 : Vec Ideal S512x64 .f32) (v45 v46 : Vec Ideal S512x256 .f32)
    (v48 : Vec Ideal S256x512 .f32) (v50 : Vec Ideal S64x512 .f32) (v57 : Vec Ideal S512 .f32) (p : Fin 512) (n : Fin 512) : EReal :=
  ((∑ k : Fin 256, (v45 (ix2 p k) - v46 (ix2 p k)) * v48 (ix2 k n))
    + (∑ k : Fin 64, kmean v35 v40 v41 p k * v50 (ix2 k n))) + v57 (ix1 n)

/-- The mean read at `(p, a)`. -/
theorem mean_apply (v35 : Vec Ideal S512x1 .i32) (v40 v41 : Vec Ideal S512x64 .f32) (p : Fin 512) (a : Fin 64) :
    (divf (addf v40 v41) (broadcastTo S512x64 (maximumf (sitofp (F := Ideal) .f32 (shapeCast S512x1 v35 shapeCasts_S512x1_S512x1))
      (broadcast S512x1 (Scalar.ofBits (F := Ideal) .f32 0x3F800000#32))) broadcasts_S512x1_S512x64) : FVec Ideal S512x64 .f32) (ix2 p a)
      = kmean v35 v40 v41 p a := by
  show Ideal.div (v40 (ix2 p a) + v41 (ix2 p a)) (broadcastTo S512x64 _ broadcasts_S512x1_S512x64 (ix2 p a)) = _
  rw [Cert.LibLayout.broadcastTo_a1_ab_apply, shapeCast_self]
  rfl

/-- The result of the last grid point of a run at `(p, a)`. -/
theorem epilogue_apply (v35 : Vec Ideal S512x1 .i32) (v40 v41 : Vec Ideal S512x64 .f32) (v45 v46 : Vec Ideal S512x256 .f32)
    (v48 : Vec Ideal S256x512 .f32) (v50 : Vec Ideal S64x512 .f32) (v57 : Vec Ideal S512 .f32) (v64 : Vec Ideal S512x64 .f32)
    (v67 : Vec Ideal S64 .f32) (p : Fin 512) (a : Fin 64) :
    k0_pay3 v35 v40 v41 v45 v46 v48 v50 v57 v64 v67 (ix2 p a)
      = ((∑ n : Fin 512, max (kpre v35 v40 v41 v45 v46 v48 v50 v57 p n) (Ideal.ofBits .f32 0x00000000#32) * v64 (ix2 n a))
          + v67 (ix1 a)) + kmean v35 v40 v41 p a := by
  unfold k0_pay3
  refine congrArg₂ (· + ·) (congrArg₂ (· + ·) ?_ ?_) ?_
  · refine (Cert.LibLayout.matmul_rows_cols_apply dot_S512x512_S512x64_S512x64_1_0_0_1_n_n rfl rfl rfl rfl dC_l0 dC_r1 none _ _ p a).trans ?_
    refine Finset.sum_congr rfl fun n _ => ?_
    refine congrArg₂ (· * ·) ?_ rfl
    refine congrArg₂ max ?_ rfl
    unfold kpre
    refine congrArg₂ (· + ·) (congrArg₂ (· + ·) ?_ ?_) ?_
    · exact Cert.LibLayout.matmul_rows_cols_apply dot_S512x256_S256x512_S512x512_1_0_0_1_n_n rfl rfl rfl rfl dA_l0 dA_r1 none _ _ p n
    · refine (Cert.LibLayout.matmul_rows_cols_apply dot_S512x64_S64x512_S512x512_1_0_0_1_n_n rfl rfl rfl rfl dB_l0 dB_r1 none _ _ p n).trans ?_
      refine Finset.sum_congr rfl fun k _ => ?_
      exact congrArg₂ (· * ·) (mean_apply v35 v40 v41 p k) rfl
    · exact Cert.LibLayout.rowBias_apply v57 _ _ p n
  · exact Cert.LibLayout.rowBias_apply v67 _ _ p a
  · exact mean_apply v35 v40 v41 p a

end Cert.KernelIdeal.Payload

end
-- ==== Proof.KEntry.lean ====
/-
  The block a run's last grid point stores, entry by entry, is the specification at the block's batch rows.

  At batch row `b = 512 (t / 8) + p`: the addend of run point `s` at lane `q` is the sum over the 32 packed rows `mm` of the
  row's term at position `64 s + 2 mm + q / 64` in feature `q % 64` (`addend_eq`); so the accumulator after the run holds,
  at lane `q`, the sum of those terms over the eight points (`acc_lane`), and its lanes `k` and `64 + k` together hold the
  sum over all 512 positions: the even positions in the lower half, the odd ones in the upper (`msum_eq`).  With the
  clamped length as the count this is the specification's mean (`mean_eq`), and the epilogue over the row's blocks is the
  specification's result (`entry`).
-/
import proofs.«103689_j15814069584202_2_alg».proof.Proof.KAccum
import proofs.«103689_j15814069584202_2_alg».proof.Proof.KArrays
import proofs.«103689_j15814069584202_2_alg».proof.Proof.KEpilogue
import proofs.«103689_j15814069584202_2_alg».proof.Proof.MaskFacts
import proofs.«103689_j15814069584202_2_alg».proof.Proof.Spec

noncomputable section

namespace Cert.KernelIdeal.Entry

open Cert.KernelIdeal Cert.KernelIdeal.Gen Idealize.ShloMosaic Idealize.ShloMosaic.TcCoe Idealize.SL.Sem
open Idealize.ShloMosaic.ValueIdx Cert.MaskFacts Cert.KernelIdeal.Payload Cert.KernelIdeal.Arrays Cert.KernelIdeal.Accum

variable (m : (ℓ : Loc nD τ sig) → Buf (Elt Ideal) ℓ)

/-- The term of position `l` in the masked sum of batch row `b`, feature `k`, for an input array `x0` and the row's length
    word `len` (zero past the row's 512 positions). -/
def rowTermOf (x0 : (⟨3, ![4096, 512, 64]⟩ : Shape).Idx → EReal) (len : BitVec 32) (b : Fin 4096) (k : Fin 64) (l : ℕ) : EReal :=
  if h : l < 512 then x0 (ix3 b ⟨l, h⟩ k) * Cert.Spec.mk len l else 0

/-- Inside the row it is the entry times its mask entry. -/
theorem rowTermOf_lt (x0 : (⟨3, ![4096, 512, 64]⟩ : Shape).Idx → EReal) (len : BitVec 32) (b : Fin 4096) (k : Fin 64) (l : ℕ)
    (h : l < 512) : rowTermOf x0 len b k l = x0 (ix3 b ⟨l, h⟩ k) * Cert.Spec.mk len l := by
  unfold rowTermOf
  exact dif_pos h

/-- The same for the input and lengths as launched. -/
def rowTerm (c : Dev nD) (b : Fin 4096) (k : Fin 64) (l : ℕ) : EReal :=
  rowTermOf (m ((c : Thread nD τ).loc main_arg0)) ((m ((c : Thread nD τ).loc main_arg1)) (ix1 b)) b k l

/-- The zero block is zero. -/
theorem zero_block (idx : S512x128.Idx) : k0_pay1 (F := Ideal) idx = 0 := by
  unfold k0_pay1
  rw [shapeCast_self]
  exact Ideal.ofBits_zero_f32

/-- The addend of run point `s` of point `t`'s run, at row `p` and lane `q`, in terms of batch row `b`. -/
theorem addend_eq (c : Dev nD) (t : Fin cfg0.N) (s : ℕ) (hs : s < 8) (p : Fin 512) (q : Fin 128) (b : Fin 4096)
    (hb : b.val = 512 * (t.val / 8) + p.val) (k : Fin 64) (hk : k.val = q.val % 64) :
    addend m c (8 * (t.val / 8) + s) p q = ∑ mm : Fin 32, rowTerm m c b k (64 * s + 2 * mm.val + q.val / 64) := by
  have hN : t.val < 64 := lt_of_lt_of_eq t.isLt N_0
  have hn : 8 * (t.val / 8) + s < cfg0.N := lt_of_lt_of_eq (show 8 * (t.val / 8) + s < 64 by omega) N_0.symm
  have hq := q.isLt
  unfold addend
  rw [dif_pos hn]
  unfold addendOf
  refine Finset.sum_congr rfl fun mm _ => ?_
  have hmm := mm.isLt
  have hL : 64 * s + 2 * mm.val + q.val / 64 < 512 := by omega
  have hM : 32 * s + mm.val < 256 := by omega
  obtain ⟨-, -, -, -, -, -, -, -, -, -, -, -, -, -, -, -, -, hj⟩ := idx_facts (⟨8 * (t.val / 8) + s, hn⟩ : Fin cfg0.N)
  have hj' : (grid0.coords (⟨8 * (t.val / 8) + s, hn⟩ : Fin cfg0.N) (1 : Fin 2)).val = s := by
    have e : (grid0.coords (⟨8 * (t.val / 8) + s, hn⟩ : Fin cfg0.N) (1 : Fin 2)).val = (8 * (t.val / 8) + s) % 8 := hj
    omega
  rw [hj']
  rw [blk0 m c (⟨8 * (t.val / 8) + s, hn⟩ : Fin cfg0.N) p mm q b ⟨32 * s + mm.val, hM⟩
      (show b.val = 512 * ((8 * (t.val / 8) + s) / 8) + p.val by omega)
      (show 32 * s + mm.val = 32 * ((8 * (t.val / 8) + s) % 8) + mm.val by omega),
    packed_apply m c b ⟨32 * s + mm.val, hM⟩ q ⟨64 * s + 2 * mm.val + q.val / 64, hL⟩ k
      (show 64 * s + 2 * mm.val + q.val / 64 = 2 * (32 * s + mm.val) + q.val / 64 by omega) hk,
    blk1 m c (⟨8 * (t.val / 8) + s, hn⟩ : Fin cfg0.N) p (0 : Fin 1) b
      (show b.val = 512 * ((8 * (t.val / 8) + s) / 8) + p.val by omega),
    lenc_apply, kmask_clamp s hs]
  exact (rowTermOf_lt (m ((c : Thread nD τ).loc main_arg0)) ((m ((c : Thread nD τ).loc main_arg1)) (ix1 b)) b k _ hL).symm

/-- The accumulator after a run's last point, at row `p` and lane `q`: the row's terms at the positions the lane stands
    for over the eight points (`d` is 0 in the lower half of the lanes, 1 in the upper). -/
theorem acc_lane (c : Dev nD) (t : Fin cfg0.N) (ht7 : t.val % 8 = 7) (p : Fin 512) (q : Fin 128) (b : Fin 4096)
    (hb : b.val = 512 * (t.val / 8) + p.val) (k : Fin 64) (hk : k.val = q.val % 64) (d : ℕ) (hd : q.val / 64 = d) :
    ((outsAt0 m c t.val t.isLt).2 : Vec Ideal S512x128 .f32) (ix2 p q) = ∑ s ∈ Finset.range 8, ∑ mm : Fin 32, rowTerm m c b k (64 * s + 2 * mm.val + d) := by
  subst hd
  rw [acc_eq m c t (ix2 p q), ht7, zero_block, zero_add]
  refine Finset.sum_congr rfl fun s hs => ?_
  exact addend_eq m c t s (Finset.mem_range.mp hs) p q b hb k hk

/-- The two lane halves of the accumulator together: the specification's masked sum of batch row `b`. -/
theorem msum_eq (c : Dev nD) (t : Fin cfg0.N) (ht7 : t.val % 8 = 7) (p : Fin 512) (b : Fin 4096)
    (hb : b.val = 512 * (t.val / 8) + p.val) (k : Fin 64) :
    ((outsAt0 m c t.val t.isLt).2 : Vec Ideal S512x128 .f32) (ix2 p (⟨k.val, by omega⟩ : Fin 128)) + ((outsAt0 m c t.val t.isLt).2 : Vec Ideal S512x128 .f32) (ix2 p (⟨64 + k.val, by omega⟩ : Fin 128))
      = Cert.Spec.msum (m ((c : Thread nD τ).loc main_arg0)) (m ((c : Thread nD τ).loc main_arg1)) b k := by
  have hk := k.isLt
  refine (congrArg₂ (· + ·)
    (acc_lane m c t ht7 p (⟨k.val, by omega⟩ : Fin 128) b hb k (show k.val = k.val % 64 by omega) 0 (show k.val / 64 = 0 by omega))
    (acc_lane m c t ht7 p (⟨64 + k.val, by omega⟩ : Fin 128) b hb k (show k.val = (64 + k.val) % 64 by omega) 1
      (show (64 + k.val) / 64 = 1 by omega))).trans ?_
  refine (Cert.WordFacts.sum_pairs_blocks (rowTerm m c b k)).symm.trans ?_
  unfold Cert.Spec.msum
  rw [Ideal.ofBits_zero_f32, zero_add]
  refine Finset.sum_congr rfl fun l _ => ?_
  exact rowTermOf_lt (m ((c : Thread nD τ).loc main_arg0)) ((m ((c : Thread nD τ).loc main_arg1)) (ix1 b)) b k l.val l.isLt

/-- A load of the lower 64 lanes of a `[512, 128]` array, at `(p, k)`. -/
theorem ld_lo (Xa : Vec Ideal S512x128 .f32) (p : Fin 512) (k : Fin 64) :
    View.ld (Val := Elt Ideal) Xa (Rect.unit (s := S512x128) ![0, 0] S512x64.size inb_S512x128_S512x64_0_0) (ix2 p k) = Xa (ix2 p (⟨k.val, by omega⟩ : Fin 128)) := by
  show Xa _ = Xa _
  exact congrArg Xa (funext fun ax => Fin.ext (by
    match ax with
    | ⟨0, _⟩ => show 0 + 1 * p.val = p.val; omega
    | ⟨1, _⟩ => show 0 + 1 * k.val = k.val; omega))

/-- A load of the upper 64 lanes, at `(p, k)`. -/
theorem ld_hi (Xa : Vec Ideal S512x128 .f32) (p : Fin 512) (k : Fin 64) :
    View.ld (Val := Elt Ideal) Xa (Rect.unit (s := S512x128) ![0, 64] S512x64.size inb_S512x128_S512x64_0_64) (ix2 p k) = Xa (ix2 p (⟨64 + k.val, by omega⟩ : Fin 128)) := by
  show Xa _ = Xa _
  exact congrArg Xa (funext fun ax => Fin.ext (by
    match ax with
    | ⟨0, _⟩ => show 0 + 1 * p.val = p.val; omega
    | ⟨1, _⟩ => show 64 + 1 * k.val = 64 + k.val; omega))

/-- A load of the first 256 rows of a `[320, 512]` array, at `(k, n)`. -/
theorem ld_top (Xw : Vec Ideal S320x512 .f32) (k : Fin 256) (n : Fin 512) :
    View.ld (Val := Elt Ideal) Xw (Rect.unit (s := S320x512) ![0, 0] S256x512.size inb_S320x512_S256x512_0_0) (ix2 k n) = Xw (ix2 (⟨k.val, by omega⟩ : Fin 320) n) := by
  show Xw _ = Xw _
  exact congrArg Xw (funext fun ax => Fin.ext (by
    match ax with
    | ⟨0, _⟩ => show 0 + 1 * k.val = k.val; omega
    | ⟨1, _⟩ => show 0 + 1 * n.val = n.val; omega))

/-- A load of its last 64 rows, at `(k, n)`. -/
theorem ld_bot (Xw : Vec Ideal S320x512 .f32) (k : Fin 64) (n : Fin 512) :
    View.ld (Val := Elt Ideal) Xw (Rect.unit (s := S320x512) ![256, 0] S64x512.size inb_S320x512_S64x512_256_0) (ix2 k n) = Xw (ix2 (⟨256 + k.val, by omega⟩ : Fin 320) n) := by
  show Xw _ = Xw _
  exact congrArg Xw (funext fun ax => Fin.ext (by
    match ax with
    | ⟨0, _⟩ => show 256 + 1 * k.val = 256 + k.val; omega
    | ⟨1, _⟩ => show 0 + 1 * n.val = n.val; omega))

/-- The mean the last point forms at row `p`, feature `k`: the specification's mean of batch row `b`. -/
theorem mean_eq (c : Dev nD) (t : Fin cfg0.N) (ht7 : t.val % 8 = 7) (p : Fin 512) (b : Fin 4096)
    (hb : b.val = 512 * (t.val / 8) + p.val) (k : Fin 64) :
    kmean (iblk m c 1 t : Vec Ideal S512x1 .i32) (View.ld (Val := Elt Ideal) ((outsAt0 m c t.val t.isLt).2 : Vec Ideal S512x128 .f32) (Rect.unit (s := S512x128) ![0, 0] S512x64.size inb_S512x128_S512x64_0_0)) (View.ld (Val := Elt Ideal) ((outsAt0 m c t.val t.isLt).2 : Vec Ideal S512x128 .f32) (Rect.unit (s := S512x128) ![0, 64] S512x64.size inb_S512x128_S512x64_0_64)) p k
      = Cert.Spec.mean (m ((c : Thread nD τ).loc main_arg0)) (m ((c : Thread nD τ).loc main_arg1)) b k := by
  unfold kmean Cert.Spec.mean
  refine congrArg₂ Ideal.div ?_ ?_
  · rw [ld_lo, ld_hi]
    exact msum_eq m c t ht7 p b hb k
  · unfold Cert.Spec.cnt
    rw [blk1 m c t p (0 : Fin 1) b hb, lenc_apply, count_eq]

/-- The block the last point of a run stores, at `(p, a)`: the specification at batch row `b`, feature `a`. -/
theorem entry (c : Dev nD) (t : Fin cfg0.N) (ht7 : t.val % 8 = 7) (p : Fin 512) (a : Fin 64) (b : Fin 4096)
    (hb : b.val = 512 * (t.val / 8) + p.val) :
    k0_pay3 (iblk m c 1 t : Vec Ideal S512x1 .i32) (View.ld (Val := Elt Ideal) ((outsAt0 m c t.val t.isLt).2 : Vec Ideal S512x128 .f32) (Rect.unit (s := S512x128) ![0, 0] S512x64.size inb_S512x128_S512x64_0_0)) (View.ld (Val := Elt Ideal) ((outsAt0 m c t.val t.isLt).2 : Vec Ideal S512x128 .f32) (Rect.unit (s := S512x128) ![0, 64] S512x64.size inb_S512x128_S512x64_0_64)) (iblk m c 3 t : Vec Ideal S512x256 .f32) (iblk m c 2 t : Vec Ideal S512x256 .f32) (View.ld (Val := Elt Ideal) (iblk m c 4 t : Vec Ideal S320x512 .f32) (Rect.unit (s := S320x512) ![0, 0] S256x512.size inb_S320x512_S256x512_0_0)) (View.ld (Val := Elt Ideal) (iblk m c 4 t : Vec Ideal S320x512 .f32) (Rect.unit (s := S320x512) ![256, 0] S64x512.size inb_S320x512_S64x512_256_0)) (iblk m c 5 t : Vec Ideal S512 .f32) (iblk m c 6 t : Vec Ideal S512x64 .f32) (iblk m c 7 t : Vec Ideal S64 .f32) (ix2 p a)
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b a := by
  refine (epilogue_apply (iblk m c 1 t : Vec Ideal S512x1 .i32) (View.ld (Val := Elt Ideal) ((outsAt0 m c t.val t.isLt).2 : Vec Ideal S512x128 .f32) (Rect.unit (s := S512x128) ![0, 0] S512x64.size inb_S512x128_S512x64_0_0)) (View.ld (Val := Elt Ideal) ((outsAt0 m c t.val t.isLt).2 : Vec Ideal S512x128 .f32) (Rect.unit (s := S512x128) ![0, 64] S512x64.size inb_S512x128_S512x64_0_64)) (iblk m c 3 t : Vec Ideal S512x256 .f32) (iblk m c 2 t : Vec Ideal S512x256 .f32) (View.ld (Val := Elt Ideal) (iblk m c 4 t : Vec Ideal S320x512 .f32) (Rect.unit (s := S320x512) ![0, 0] S256x512.size inb_S320x512_S256x512_0_0)) (View.ld (Val := Elt Ideal) (iblk m c 4 t : Vec Ideal S320x512 .f32) (Rect.unit (s := S320x512) ![256, 0] S64x512.size inb_S320x512_S64x512_256_0)) (iblk m c 5 t : Vec Ideal S512 .f32) (iblk m c 6 t : Vec Ideal S512x64 .f32) (iblk m c 7 t : Vec Ideal S64 .f32) p a).trans ?_
  unfold Cert.Spec.out Cert.Spec.hid
  refine congrArg₂ (· + ·) (congrArg₂ (· + ·) ?_ ?_) (mean_eq m c t ht7 p b hb a)
  · refine Finset.sum_congr rfl fun n _ => ?_
    refine congrArg₂ (· * ·) (congrArg₂ max ?_ rfl) ?_
    · unfold kpre Cert.Spec.pre
      refine congrArg₂ (· + ·) (congrArg₂ (· + ·) ?_ ?_) ?_
      · refine Finset.sum_congr rfl fun k _ => ?_
        refine congrArg₂ (· * ·) (congrArg₂ (· - ·) ?_ ?_) ?_
        · exact (blk3 m c t p k b hb).trans (congrFun (V_main_arg3 m c) _)
        · exact (blk2 m c t p k b hb).trans (congrFun (V_main_arg2 m c) _)
        · exact (ld_top (iblk m c 4 t : Vec Ideal S320x512 .f32) k n).trans ((blk4 m c t _ n).trans (congrFun (V_main_arg4 m c) _))
      · refine Finset.sum_congr rfl fun k _ => ?_
        refine congrArg₂ (· * ·) (mean_eq m c t ht7 p b hb k) ?_
        exact (ld_bot (iblk m c 4 t : Vec Ideal S320x512 .f32) k n).trans ((blk4 m c t _ n).trans (congrFun (V_main_arg4 m c) _))
      · exact (blk5 m c t n).trans (congrFun (V_main_arg5 m c) _)
    · exact (blk6 m c t n a).trans (congrFun (V_main_arg6 m c) _)
  · exact (blk7 m c t a).trans (congrFun (V_main_arg7 m c) _)

end Cert.KernelIdeal.Entry

end
-- ==== Proof.KPieceOut.lean ====
/-
  The output block a run's last grid point stores, as the body's own arithmetic: the epilogue of the freshly stored
  accumulator's lower and upper lane halves, of the two row ranges of the first weight matrix, and of the other operands.
-/
import proofs.«103689_j15814069584202_2_alg».proof.Proof.KPieces

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- A load through any rectangle of what one covering store left reads the stored value through the rectangle. -/
theorem readCov_whole {sig : RefSig} {κ : Kind} {sp : Space} (v : View sig κ sp S512x128 .f32) (w : S512x128.Idx → Elt F .f32)
    (r : Rect S512x128) :
    v.readCov [(⟨Rect.unit ![0, 0] S512x128.size inb_S512x128_S512x128_0_0, w⟩ : View.Piece (Elt F) S512x128 .f32)] r
      = View.ld (Val := Elt F) w r := by
  rw [View.readCov_eq_canon_ld _ _ _ (fun y => ⟨_, List.mem_singleton_self _, View.mem_set_unit_zero hz2 inb_S512x128_S512x128_0_0 y⟩),
    View.canon_unit_zero hz2]

/-- At the last point of a run (case C) the output block is the epilogue of the freshly stored accumulator's two lane
    halves, the two row ranges of the first weight matrix, and the other operands. -/
theorem out_C (c : Dev nD) (i : grid0.Coords) (arg2 : Memref sig .tc .vmem S512x32x128 .f32) (harg2 : arg2.IsWhole) (arg3 : Memref sig .tc .vmem S512x1 .i32) (harg3 : arg3.IsWhole) (arg4 : Memref sig .tc .vmem S512x256 .f32) (harg4 : arg4.IsWhole) (arg5 : Memref sig .tc .vmem S512x256 .f32) (harg5 : arg5.IsWhole) (arg6 : Memref sig .tc .vmem S320x512 .f32) (harg6 : arg6.IsWhole) (arg7 : Memref sig .tc .vmem S512 .f32) (harg7 : arg7.IsWhole) (arg8 : Memref sig .tc .vmem S512x64 .f32) (harg8 : arg8.IsWhole) (arg9 : Memref sig .tc .vmem S64 .f32) (harg9 : arg9.IsWhole) (arg10 : Memref sig .tc .vmem S512x64 .f32) (harg10 : arg10.IsWhole) (arg11 : Memref sig .tc .vmem S512x128 .f32) (harg11 : arg11.IsWhole) (hc0 : ¬cond0_0 i) (hc1 : cond0_1 i) (x0 : Vec F S512x32x128 .f32) (x1 : Vec F S512x1 .i32) (x2 : Vec F S512x256 .f32) (x3 : Vec F S512x256 .f32) (x4 : Vec F S320x512 .f32) (x5 : Vec F S512 .f32) (x6 : Vec F S512x64 .f32) (x7 : Vec F S64 .f32) (xs0 : Vec F S512x128 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0
      = k0_pay3 x1
          (View.ld (Val := Elt F) (k0_pay2 i x1 x0 xs0) (Rect.unit (s := S512x128) ![0, 0] S512x64.size inb_S512x128_S512x64_0_0))
          (View.ld (Val := Elt F) (k0_pay2 i x1 x0 xs0) (Rect.unit (s := S512x128) ![0, 64] S512x64.size inb_S512x128_S512x64_0_64))
          x3 x2
          (View.ld (Val := Elt F) x4 (Rect.unit (s := S320x512) ![0, 0] S256x512.size inb_S320x512_S256x512_0_0))
          (View.ld (Val := Elt F) x4 (Rect.unit (s := S320x512) ![256, 0] S64x512.size inb_S320x512_S64x512_256_0))
          x5 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  rw [readCov_whole, readCov_whole]
  simp only [View.readAt_eq_ld, harg3.read_unread, harg2.read_unread, harg4.read_unread, harg5.read_unread,
    harg6.read_unread, harg7.read_unread, harg8.read_unread, harg9.read_unread, harg11.read_unread]
  rw [View.ld_unit_zero (S := S512x1) hz2, View.ld_unit_zero (S := S512x32x128) hz3, View.ld_unit_zero (S := S512x128) hz2,
    View.ld_unit_zero (S := S512x256) hz2, View.ld_unit_zero (S := S512x256) hz2, View.ld_unit_zero (S := S512) hz1,
    View.ld_unit_zero (S := S512x64) hz2, View.ld_unit_zero (S := S64) hz1]

end Cert.KernelIdeal.Pieces

end
-- ==== Proof.KFinal.lean ====
/-
  The kernel's result array after the run is the specification.

  The output is written back at the last point of each run, `t % 8 = 7`; what is written is the block of the
  specification at batch rows `512 (t / 8) … 512 (t / 8) + 511` (`flushed_eq`), and every batch row lies in the block of
  the last point of its tile's run (`cover`): so the array ends holding the specification (`final`), and the run is
  re-posted with that (`run`).
-/
import proofs.«103689_j15814069584202_2_alg».proof.Proof.KEntry
import proofs.«103689_j15814069584202_2_alg».proof.Proof.KPieceOut

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Pieces Cert.KernelIdeal.Arrays Cert.KernelIdeal.Entry

variable (m : (ℓ : Loc nD τ sig) → Buf (Elt Ideal) ℓ) (ρ : Dev nD → PrngReg)

/-- The specification of the argument arrays as launched, as contents of the result array. -/
abbrev result (c : Dev nD) : S4096x64.Idx → EReal := Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What the last point of a run writes back is its block of the specification. -/
theorem flushed_eq (c : Dev nD) (t : Fin cfg0.N) (hf : (cfg0.win 8).flush t = true) :
    (dats m 0 c).flushed 8 t = ((cfg0.win 8).blk t).view.read (Elt Ideal) (result m c) := by
  have ht7 : t.val % 8 = 7 := (flush0_8 t).mp hf
  have h0 : ¬t.val % 8 = 0 := by omega
  have hN : t.val < 64 := lt_of_lt_of_eq t.isLt N_0
  have hf8 := idx_facts t
  rw [Cert.KernelIdeal.Value.flushed8_C m c t h0 ht7]
  refine funext fun (y : S512x64.Idx) => ?_
  obtain ⟨p, a, rfl⟩ : ∃ (p : Fin 512) (a : Fin 64), y = ix2 p a := ⟨y 0, y 1, eq_ix2 y⟩
  have hp := p.isLt
  have hcut : ∀ X : Vec Ideal S512x64 .f32, (cfg0.win 8).cut (grid0.coords t) X (ix2 p a) = X (ix2 p a) := fun _ => rfl
  have hread : ∀ Gf : S4096x64.Idx → EReal,
      ((cfg0.win 8).blk t).view.read (Elt Ideal) Gf (ix2 p a) = Gf (((cfg0.win 8).blk t).view.emb (ix2 p a)) := fun _ => rfl
  have hemb : ((cfg0.win 8).blk t).view.emb (ix2 p a) = ix2 (⟨512 * (t.val / 8) + p.val, by omega⟩ : Fin 4096) a :=
    funext fun ax => Fin.ext (by
      match ax with
      | ⟨0, _⟩ => show win0_8.index t (0 : Fin 2) * 512 + 1 * p.val = 512 * (t.val / 8) + p.val; omega
      | ⟨1, _⟩ => show win0_8.index t (1 : Fin 2) * 64 + 1 * a.val = a.val; omega)
  have hacc : (outsAt0 m c t.val t.isLt).2
      = k0_pay2 (grid0.coords t) (iblk m c 1 t) (iblk m c 0 t) (outsAt0 m c (t.val - 1) (Nat.lt_of_le_of_lt (Nat.sub_le _ _) t.isLt)).2 := by
    rw [outsAt0_C m c t h0 ht7]
    exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr ht7) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2
  refine (hcut _).trans ?_
  refine Eq.trans ?_ (hread _).symm
  rw [hemb]
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr ht7) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2) (ix2 p a)).trans ?_
  rw [← hacc]
  exact entry m c t ht7 p a (⟨512 * (t.val / 8) + p.val, by omega⟩ : Fin 4096) rfl

/-- An index of the array is in point `t`'s block iff each coordinate is in the block's range on its axis. -/
theorem mem_blk (t : Fin cfg0.N) (i : S4096x64.Idx) :
    i ∈ ((cfg0.win 8).blk t).view.set ↔ ∀ a : Fin 2, win0_8.index t a * S512x64.size a ≤ (i a).val
      ∧ (i a).val < win0_8.index t a * S512x64.size a + S512x64.size a := by
  show i ∈ ((View.whole main_v3).slice (win0_8.rect t)).set ↔ _
  rw [View.set_slice_whole, Rect.mem_set_unit]
  exact Iff.rfl

/-- Every entry of the array lies in the block of the last point of its batch tile's run. -/
theorem cover (i : S4096x64.Idx) :
    ∃ t : Fin cfg0.N, (cfg0.win 8).flush t = true ∧ i ∈ ((cfg0.win 8).blk t).view.set := by
  have hi0 : (i 0).val < 4096 := (i 0).isLt
  have hi1 : (i 1).val < 64 := (i 1).isLt
  have hlt : 8 * ((i 0).val / 512) + 7 < cfg0.N := lt_of_lt_of_eq (show 8 * ((i 0).val / 512) + 7 < 64 by omega) N_0.symm
  refine ⟨⟨8 * ((i 0).val / 512) + 7, hlt⟩, (flush0_8 _).mpr (show (8 * ((i 0).val / 512) + 7) % 8 = 7 by omega), ?_⟩
  obtain ⟨-, -, -, -, -, -, -, -, -, -, -, -, -, -, -, e0, e1, -⟩ := idx_facts (⟨8 * ((i 0).val / 512) + 7, hlt⟩ : Fin cfg0.N)
  have e0' : win0_8.index (⟨8 * ((i 0).val / 512) + 7, hlt⟩ : Fin cfg0.N) (0 : Fin 2) = (8 * ((i 0).val / 512) + 7) / 8 := e0
  rw [mem_blk]
  intro ax
  match ax with
  | ⟨0, _⟩ =>
    show win0_8.index _ (0 : Fin 2) * 512 ≤ (i 0).val ∧ (i 0).val < win0_8.index _ (0 : Fin 2) * 512 + 512
    rw [e0']
    omega
  | ⟨1, _⟩ =>
    show win0_8.index _ (1 : Fin 2) * 64 ≤ (i 1).val ∧ (i 1).val < win0_8.index _ (1 : Fin 2) * 64 + 64
    rw [e1]
    omega

/-- The result array after the run is the specification of the argument arrays. -/
theorem final (c : Dev nD) : (dats m 0 c).arrAt 8 cfg0.N = result m c :=
  (dats m 0 c).arrAt_eq_of_cover 8 (result m c) (fun t hf => flushed_eq m c t hf) cover

/-- The run, read: the result array at the specification, the argument arrays unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.Final

end
-- ==== Proof.LibColumns.lean ====
/-
  Column-wise layout operations on matrices, read at an index written by coordinates.

  A block of columns cut from a matrix; a single entry `[1, 1]` repeated down a column `[a, 1]`; two matrices with the
  same rows set side by side, read in the left piece and in the right piece; and a matrix widened by padding columns on
  the right, read inside the original columns. Each holds for any element type and any extents.
-/
import Idealize.ShloMosaic.Lib.Pipeline.Value
import Idealize.ShloMosaic.Lib.ValueIdx
import Idealize.ShloMosaic.Lib.KernelVsHost

namespace Cert.LibColumns

open Idealize.ShloMosaic Idealize.ShloMosaic.ValueIdx

variable {α : Type}

/-- Columns `o … o + m − 1` cut from an `[a, n]` matrix: entry `(p, j)` of the cut is entry `(p, o + j)` of the matrix. -/
theorem slice_cols_apply {a n m : ℕ} (o : ℕ) (X : (⟨2, ![a, n]⟩ : Shape).Idx → α)
    (h : (⟨2, ![a, n]⟩ : Shape).Slices ![0, o] ⟨2, ![a, m]⟩) (p : Fin a) (j : Fin m) (hj : o + j.val < n) :
    extractStridedSlice ⟨2, ![a, m]⟩ ![0, o] X h (ix2 p j) = X (ix2 p ⟨o + j.val, hj⟩) :=
  extractStridedSlice_apply _ _ _ _ _ (fun ax => by
    match ax with
    | ⟨0, _⟩ => show p.val = 0 + p.val; omega
    | ⟨1, _⟩ => rfl)

/-- A single entry `[1, 1]` repeated down a column `[a, 1]`: every entry of the column is that entry. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => show (0 : ℕ) = if (1 : ℕ) = 1 then 0 else p.val; rw [if_pos rfl]
  | ⟨1, _⟩ => show (0 : ℕ) = if (1 : ℕ) = 1 then 0 else u.val; rw [if_pos rfl]

/-- Two matrices with the same rows set side by side, `[r, n1]` then `[r, n2]`: a column `j < n1` of the result is
    column `j` of the left piece. -/
theorem concat_cols_left {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n1) (hj : j.val < n) :
    concatenate ⟨2, ![r, n]⟩ 1 [⟨⟨2, ![r, n1]⟩, A⟩, ⟨⟨2, ![r, n2]⟩, B⟩] h (ix2 k ⟨j.val, hj⟩) = A (ix2 k j) :=
  concatenate_pair_apply_left 1 A B h _ rfl (ix2 k j) (fun b => by
    match b with
    | ⟨0, _⟩ => rfl
    | ⟨1, _⟩ => rfl)

/-- The same, in the right piece: column `n1 + j` of the result is column `j` of the right piece. -/
theorem concat_cols_right {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n2)
    (hj : n1 + j.val < n) :
    concatenate ⟨2, ![r, n]⟩ 1 [⟨⟨2, ![r, n1]⟩, A⟩, ⟨⟨2, ![r, n2]⟩, B⟩] h (ix2 k ⟨n1 + j.val, hj⟩) = B (ix2 k j) :=
  concatenate_pair_apply_right 1 A B h _ rfl rfl (ix2 k j)
    (fun b hb => by
      match b with
      | ⟨0, _⟩ => rfl
      | ⟨1, _⟩ => exact absurd rfl hb)
    (by show j.val + n1 = n1 + j.val; omega)

/-- A matrix `[r, n]` widened to `[r, N]` by padding columns on the right only: inside the first `n` columns the
    result is the matrix, whatever the padding value. -/
theorem pad_cols_apply {r n N : ℕ} (hi : ℕ) (X : (⟨2, ![r, n]⟩ : Shape).Idx → α) {u : Shape} (v : u.Idx → α)
    (hp : (⟨2, ![r, n]⟩ : Shape).Pads ![0, 0] ![0, hi] ![0, 0] ⟨2, ![r, N]⟩) (hu : 0 < u.numel)
    (k : Fin r) (j : Fin n) (hj : j.val < N) :
    pad ⟨2, ![r, N]⟩ ![0, 0] ![0, hi] ![0, 0] X v hp hu (ix2 k ⟨j.val, hj⟩) = X (ix2 k j) :=
  pad_apply_of_inside _ _ _ X v hp hu _ (ix2 k j) (fun ax => by
    match ax with
    | ⟨0, _⟩ => show k.val = 0 + k.val * (0 + 1); omega
    | ⟨1, _⟩ => show j.val = 0 + j.val * (0 + 1); omega)

end Cert.LibColumns
-- ==== Proof.RefIsSpec.lean ====
/-
  The reference program's result, read entry by entry on the extended reals, is the specification function.

  Every operation of the reference is read at an index written by coordinates.  The mask entry at row `b`, position `l`
  is the comparison's bit read as a number; the count of a row is the larger of the mask's sum and one; the masked sum is
  the sum of the products with the mask; the mean is their quotient.  The first layer contracts the 320 columns of the
  feature difference set beside the mean against the weight: the sum over the 320 columns is the sum over the first 256
  (the left piece, the difference) plus the sum over the last 64 (the right piece, the mean).  That split is the only step
  that is not a reading of one operation: the rest of both sides is the same expression in the same order.
-/
import proofs.«103689_j15814069584202_2_alg».proof.Proof.Gen.ReferenceIdeal.Read
import proofs.«103689_j15814069584202_2_alg».proof.Proof.Spec
import proofs.«103689_j15814069584202_2_alg».proof.Proof.LibColumns
import Idealize.ShloMosaic.Lib.ValueIdx
import Idealize.ShloMosaic.PureOps.Ideal

noncomputable section

namespace Cert.RefIsSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S4096x512x64, .f32⟩ : BufTy).Contents (Elt Ideal)) (x1 : (⟨S4096, .i32⟩ : BufTy).Contents (Elt Ideal))
  (x2 x3 : (⟨S4096x256, .f32⟩ : BufTy).Contents (Elt Ideal)) (x4 : (⟨S320x512, .f32⟩ : BufTy).Contents (Elt Ideal))
  (x5 : (⟨S512, .f32⟩ : BufTy).Contents (Elt Ideal)) (x6 : (⟨S512x64, .f32⟩ : BufTy).Contents (Elt Ideal))
  (x7 : (⟨S64, .f32⟩ : BufTy).Contents (Elt Ideal))

/-- The mask at row `b`, position `l`: the bit of "`l` is below the row's length, as signed numbers", read as a number. -/
theorem mask_entry (b : Fin 4096) (l : Fin 512) :
    val_main_v6 (F := Ideal) x1 (ix2 b l) = Cert.Spec.mk (x1 (ix1 b)) l.val := by
  have e : idx_main_v2 (idx_main_v4 (ix2 b l)) = ix1 b :=
    funext fun d => Fin.ext (by match d with | ⟨0, _⟩ => rfl)
  rw [val_main_v6_apply, val_main_v5_apply, val_main_v3_apply, val_main_v1_apply, val_main_v0_apply,
    val_main_v4_apply, val_main_v2_apply, e]
  rfl

/-- The count of row `b` (repeated along the features): the mask's sum from zero, and at least one. -/
theorem count_eq (b : Fin 4096) (a : Fin 64) :
    val_main_v15 (F := Ideal) x1 (ix2 b a) = Cert.Spec.cnt x1 b := by
  rw [val_main_v15_apply, val_main_v10_apply, val_main_v8_apply, val_main_v7_apply, val_main_v9_apply,
    val_main_cst_0_apply, val_main_cst_apply]
  unfold Cert.Spec.cnt
  refine congrArg (fun s => max (Ideal.ofBits .f32 0x00000000#32 + s) (Ideal.ofBits .f32 0x3F800000#32)) ?_
  refine Finset.sum_congr rfl fun l _ => ?_
  have e : idx_main_v7 (idx_main_v8 (idx_main_v15 (ix2 b a))) l = ix2 b l :=
    funext fun d => Fin.ext (by match d with | ⟨0, _⟩ => rfl | ⟨1, _⟩ => rfl)
  rw [e, mask_entry]

/-- The masked sum of row `b` in feature `a`: the sum over the positions of the entry times the mask, from zero. -/
theorem msum_eq (b : Fin 4096) (a : Fin 64) :
    val_main_v14 (F := Ideal) x0 x1 (ix2 b a) = Cert.Spec.msum x0 x1 b a := by
  rw [val_main_v14_apply, val_main_cst_1_apply]
  unfold Cert.Spec.msum
  refine congrArg (fun s => Ideal.ofBits .f32 0x00000000#32 + s) ?_
  refine Finset.sum_congr rfl fun l _ => ?_
  have e : idx_main_v14 (ix2 b a) l = ix3 b l a :=
    funext fun d => Fin.ext (by match d with | ⟨0, _⟩ => rfl | ⟨1, _⟩ => rfl | ⟨2, _⟩ => rfl)
  have e2 : idx_main_v11 (idx_main_v12 (ix3 b l a)) = ix2 b l :=
    funext fun d => Fin.ext (by match d with | ⟨0, _⟩ => rfl | ⟨1, _⟩ => rfl)
  rw [e, val_main_v13_apply, val_main_v12_apply, val_main_v11_apply, e2, mask_entry]
  rfl

/-- The masked mean of row `b` in feature `a`: the masked sum over the count. -/
theorem mean_eq (b : Fin 4096) (a : Fin 64) :
    val_main_v16 (F := Ideal) x0 x1 (ix2 b a) = Cert.Spec.mean x0 x1 b a := by
  rw [val_main_v16_apply, msum_eq, count_eq]
  rfl

/-- The joined matrix in its first 256 columns: the feature difference. -/
theorem cat_left (b : Fin 4096) (k : Fin 256) (hk : k.val < 320) :
    val_main_v18 (F := Ideal) x0 x1 x2 x3 (ix2 b ⟨k.val, hk⟩) = x3 (ix2 b k) - x2 (ix2 b k) := by
  unfold val_main_v18
  exact Cert.LibColumns.concat_cols_left (val_main_v17 (F := Ideal) x2 x3) (val_main_v16 (F := Ideal) x0 x1)
    concatenates_S4096x256_S4096x64_S4096x320_d1 b k hk

/-- The joined matrix in its last 64 columns: the masked mean. -/
theorem cat_right (b : Fin 4096) (k : Fin 64) (hk : 256 + k.val < 320) :
    val_main_v18 (F := Ideal) x0 x1 x2 x3 (ix2 b ⟨256 + k.val, hk⟩) = Cert.Spec.mean x0 x1 b k := by
  unfold val_main_v18
  exact (Cert.LibColumns.concat_cols_right (val_main_v17 (F := Ideal) x2 x3) (val_main_v16 (F := Ideal) x0 x1)
    concatenates_S4096x256_S4096x64_S4096x320_d1 b k hk).trans (mean_eq x0 x1 b k)

/-- A sum over 320 columns is the sum over the first 256 plus the sum over the last 64. -/
theorem sum_split (f : Fin 320 → EReal) :
    ∑ k : Fin 320, f k = (∑ k : Fin 256, f ⟨k.val, by omega⟩) + ∑ k : Fin 64, f ⟨256 + k.val, by omega⟩ :=
  Fin.sum_univ_add (a := 256) (b := 64) f

/-- The first layer before the rectifier at row `b`, unit `n`. -/
theorem pre_eq (b : Fin 4096) (n : Fin 512) :
    val_main_v22 (F := Ideal) x0 x1 x2 x3 x4 x5 (ix2 b n) = Cert.Spec.pre x0 x1 x2 x3 x4 x5 b n := by
  have e5 : idx_main_v20 (idx_main_v21 (ix2 b n)) = ix1 n :=
    funext fun d => Fin.ext (by match d with | ⟨0, _⟩ => rfl)
  have hl : ∀ k : Fin 320, lidx_main_v19 (ix2 b n) k = ix2 b k := fun k =>
    funext fun d => Fin.ext (by match d with | ⟨0, _⟩ => rfl | ⟨1, _⟩ => rfl)
  have hr : ∀ k : Fin 320, ridx_main_v19 (ix2 b n) k = ix2 k n := fun k =>
    funext fun d => Fin.ext (by match d with | ⟨0, _⟩ => rfl | ⟨1, _⟩ => rfl)
  rw [val_main_v22_apply, val_main_v19_apply, val_main_v21_apply, val_main_v20_apply, e5]
  unfold Cert.Spec.pre
  refine congrArg (fun s => s + x5 (ix1 n)) ?_
  refine (sum_split _).trans ?_
  refine congrArg₂ (· + ·) (Finset.sum_congr rfl fun k _ => ?_) (Finset.sum_congr rfl fun k _ => ?_)
  · rw [hl, hr, cat_left]
  · rw [hl, hr, cat_right]

/-- The hidden layer at row `b`, unit `n`: the rectifier of the first layer. -/
theorem hid_eq (b : Fin 4096) (n : Fin 512) :
    val_main_v23 (F := Ideal) x0 x1 x2 x3 x4 x5 (ix2 b n) = Cert.Spec.hid x0 x1 x2 x3 x4 x5 b n := by
  rw [val_main_v23_apply, val_main_call0_v0_apply, val_main_call0_cst_apply, pre_eq]
  rfl

/-- The result at row `b`, feature `a`. -/
theorem out_eq (b : Fin 4096) (a : Fin 64) :
    val_main_v28 (F := Ideal) x0 x1 x2 x3 x4 x5 x6 x7 (ix2 b a) = Cert.Spec.out x0 x1 x2 x3 x4 x5 x6 x7 b a := by
  have e7 : idx_main_v25 (idx_main_v26 (ix2 b a)) = ix1 a :=
    funext fun d => Fin.ext (by match d with | ⟨0, _⟩ => rfl)
  rw [val_main_v28_apply, val_main_v27_apply, val_main_v24_apply, val_main_v26_apply, val_main_v25_apply, e7, mean_eq]
  unfold Cert.Spec.out
  refine congrArg (fun s => s + x7 (ix1 a) + Cert.Spec.mean x0 x1 b a) ?_
  refine Finset.sum_congr rfl fun n _ => ?_
  have hl : lidx_main_v24 (ix2 b a) n = ix2 b n :=
    funext fun d => Fin.ext (by match d with | ⟨0, _⟩ => rfl | ⟨1, _⟩ => rfl)
  have hr : ridx_main_v24 (ix2 b a) n = ix2 n a :=
    funext fun d => Fin.ext (by match d with | ⟨0, _⟩ => rfl | ⟨1, _⟩ => rfl)
  rw [hl, hr, hid_eq]

/-- The reference's result is the specification function. -/
theorem ref_eq_spec (x0 : (⟨S4096x512x64, .f32⟩ : BufTy).Contents (Elt Ideal)) (x1 : (⟨S4096, .i32⟩ : BufTy).Contents (Elt Ideal))
    (x2 x3 : (⟨S4096x256, .f32⟩ : BufTy).Contents (Elt Ideal)) (x4 : (⟨S320x512, .f32⟩ : BufTy).Contents (Elt Ideal))
    (x5 : (⟨S512, .f32⟩ : BufTy).Contents (Elt Ideal)) (x6 : (⟨S512x64, .f32⟩ : BufTy).Contents (Elt Ideal))
    (x7 : (⟨S64, .f32⟩ : BufTy).Contents (Elt Ideal)) :
    Cert.ReferenceIdeal.Read.val_main_v28 (F := Ideal) x0 x1 x2 x3 x4 x5 x6 x7 = Cert.Spec.G x0 x1 x2 x3 x4 x5 x6 x7 := by
  funext i
  obtain ⟨b, a, rfl⟩ : ∃ (b : Fin 4096) (a : Fin 64), i = ix2 b a := ⟨i 0, i 1, eq_ix2 i⟩
  exact out_eq x0 x1 x2 x3 x4 x5 x6 x7 b a

end Cert.RefIsSpec

end
-- ==== Proof.lean ====
/-
  A masked mean over a ragged batch feeding a small residual perceptron: the Pallas kernel against its jnp reference.

  Both programs compute, for batch row `b` with length `len` and feature `a`,
      mean[b, a] = (Σ_{l < len} padded[b, l, a]) / max(#{l < 512 : l < len}, 1),
      out[b, a]  = max((concat_feat − cluster_center)[b, :] · W1[:256] + mean[b, :] · W1[256:] + b1, 0) · W2 + b2 + mean[b, a]
  (`Cert.Spec`).  The reference does so in one pass over the whole arrays, the mean joined to the feature difference and
  one product taken against the whole first weight matrix (the sum over the joined axis split at the join).  The kernel
  walks an 8 × 8 grid: a batch tile of 512 rows by eight runs over the length axis, on a packed layout in which packed row
  `M`, lane `q` of a batch row is position `2 M + q / 64`, feature `q % 64`; each point adds its masked row sums into an
  accumulator zeroed at the run's first point, the mask comparing the lane's position with the length clamped into
  [0, 512]; the last point of a run adds the accumulator's two lane halves — the even positions and the odd ones —,
  divides by the clamped length (at least one) and applies the perceptron with the first weight matrix split at row 256.
  On the extended reals the two are one function: addition is commutative and associative there, so the regrouping of
  the 512 positions needs nothing of the inputs; the clamped length is the number of positions below the length; a
  position below 512 is below the clamped length exactly when it is below the length; every other operation is the
  same operation on both sides, and a change of float format is the identity.  The precondition is not used.
-/
import proofs.«103689_j15814069584202_2_alg».proof.Defs
import proofs.«103689_j15814069584202_2_alg».proof.Proof.Gen.Kernel
import proofs.«103689_j15814069584202_2_alg».proof.Proof.Gen.Kernel.Skeleton
import proofs.«103689_j15814069584202_2_alg».proof.Proof.Gen.Kernel.Launch
import proofs.«103689_j15814069584202_2_alg».proof.Proof.Gen.Kernel.Points
import proofs.«103689_j15814069584202_2_alg».proof.Proof.Gen.Kernel.Frame
import proofs.«103689_j15814069584202_2_alg».proof.Proof.Gen.KernelIdeal
import proofs.«103689_j15814069584202_2_alg».proof.Proof.Gen.KernelIdeal.Skeleton
import proofs.«103689_j15814069584202_2_alg».proof.Proof.Gen.KernelIdeal.Launch
import proofs.«103689_j15814069584202_2_alg».proof.Proof.Gen.KernelIdeal.Points
import proofs.«103689_j15814069584202_2_alg».proof.Proof.Gen.KernelIdeal.Frame
import proofs.«103689_j15814069584202_2_alg».proof.Proof.Gen.ReferenceIdeal
import proofs.«103689_j15814069584202_2_alg».proof.Proof.Gen.KernelIdeal.Value
import proofs.«103689_j15814069584202_2_alg».proof.Proof.Gen.ReferenceIdeal.Run
import proofs.«103689_j15814069584202_2_alg».proof.Proof.Gen.ReferenceIdeal.Read
import proofs.«103689_j15814069584202_2_alg».proof.Proof.Gen.Pre_finite_inputs
import proofs.«103689_j15814069584202_2_alg».proof.Proof.KFinal
import proofs.«103689_j15814069584202_2_alg».proof.Proof.RefIsSpec
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel's result array ends at the specification of its arguments, and
    the reference's at the specification of its own: one array. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v28_eq, Cert.RefIsSpec.ref_eq_spec, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
